-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S32x16 .f32) (main_arg10 : FVec F S16 .f32) (main_arg11 : FVec F S16x1 .f32) (main_arg12 : FVec F S1 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg11
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x32 .f32) (main_arg1 : IVec S2x3200000 32) (main_arg2 : IVec S2x500000 32) (main_arg3 : FVec F S32x64 .f32) (main_arg4 : FVec F S64 .f32) (main_arg5 : FVec F S64x64 .f32) (main_arg6 : FVec F S64 .f32) (main_arg7 : FVec F S64x32 .f32) (main_arg8 : FVec F S32 .f32) (main_arg9 : FVec F S32x16 .f32) (main_arg10 : FVec F S16 .f32) (main_arg11 : FVec F S16x1 .f32) (main_arg12 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x32 : Shape := ⟨2, ![100000, 32]⟩
abbrev S2x3200000 : Shape := ⟨2, ![2, 3200000]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S1x500000 : Shape := ⟨2, ![1, 500000]⟩
abbrev S500000 : Shape := ⟨1, ![500000]⟩
abbrev S_ : Shape := ⟨0, ![]⟩
abbrev S100000 : Shape := ⟨1, ![100000]⟩
abbrev S3200000x1 : Shape := ⟨2, ![3200000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S3200000x64 : Shape := ⟨2, ![3200000, 64]⟩
abbrev S100000x1 : Shape := ⟨2, ![100000, 1]⟩
abbrev S1x32 : Shape := ⟨2, ![1, 32]⟩
abbrev S3200000x32 : Shape := ⟨2, ![3200000, 32]⟩
abbrev S500000x1 : Shape := ⟨2, ![500000, 1]⟩
abbrev S500000x32 : Shape := ⟨2, ![500000, 32]⟩
abbrev S1x16 : Shape := ⟨2, ![1, 16]⟩
abbrev S1x1 : Shape := ⟨2, ![1, 1]⟩
abbrev S10000x1 : Shape := ⟨2, ![10000, 1]⟩
abbrev S10000x16 : Shape := ⟨2, ![10000, 16]⟩

abbrev nBuf : Space → Nat
  | .hbm => 126
  | .vmem => 40
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S2x500000, .i32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S1x500000, .i32⟩
  | .hbm, ⟨18, _⟩ => ⟨S500000, .i32⟩
  | .hbm, ⟨19, _⟩ => ⟨S1x500000, .i32⟩
  | .hbm, ⟨20, _⟩ => ⟨S500000, .i32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000, .f32⟩
  | .hbm, ⟨50, _⟩ => ⟨S3200000, .f32⟩
  | .hbm, ⟨51, _⟩ => ⟨S1x64, .f32⟩
  | .hbm, ⟨52, _⟩ => ⟨S100000x64, .f32⟩
  | .hbm, ⟨53, _⟩ => ⟨S_, .f32⟩
  | .hbm, ⟨54, _⟩ => ⟨S64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x64, .f32⟩
  | .hbm, ⟨66, _⟩ => ⟨S3200000x1, .f32⟩
  | .hbm, ⟨67, _⟩ => ⟨S3200000x64, .f32⟩
  | .hbm, ⟨68, _⟩ => ⟨S3200000x64, .f32⟩
  | .hbm, ⟨69, _⟩ => ⟨S_, .f32⟩
  | .hbm, ⟨70, _⟩ => ⟨S100000x64, .f32⟩
  | .hbm, ⟨71, _⟩ => ⟨S3200000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S_, .f32⟩
  | .hbm, ⟨79, _⟩ => ⟨S32, .f32⟩
  | .hbm, ⟨80, _⟩ => ⟨S1x32, .f32⟩
  | .hbm, ⟨81, _⟩ => ⟨S100000x32, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x32, .f32⟩
  | .hbm, ⟨91, _⟩ => ⟨S3200000x1, .f32⟩
  | .hbm, ⟨92, _⟩ => ⟨S3200000x32, .f32⟩
  | .hbm, ⟨93, _⟩ => ⟨S3200000x32, .f32⟩
  | .hbm, ⟨94, _⟩ => ⟨S_, .f32⟩
  | .hbm, ⟨95, _⟩ => ⟨S100000x32, .f32⟩
  | .hbm, ⟨96, _⟩ => ⟨S3200000x1, .i32⟩
  | .hbm, ⟨97, _⟩ => ⟨S100000x32, .f32⟩
  | .hbm, ⟨98, _⟩ => ⟨S100000x1, .f32⟩
  | .hbm, ⟨99, _⟩ => ⟨S100000x32, .f32⟩
  | .hbm, ⟨100, _⟩ => ⟨S100000x32, .f32⟩
  | .hbm, ⟨101, _⟩ => ⟨S1x32, .f32⟩
  | .hbm, ⟨102, _⟩ => ⟨S100000x32, .f32⟩
  | .hbm, ⟨103, _⟩ => ⟨S_, .i32⟩
  | .hbm, ⟨104, _⟩ => ⟨S500000, .i32⟩
  | .hbm, ⟨105, _⟩ => ⟨S500000, .i1⟩
  | .hbm, ⟨106, _⟩ => ⟨S_, .i32⟩
  | .hbm, ⟨107, _⟩ => ⟨S500000, .i32⟩
  | .hbm, ⟨108, _⟩ => ⟨S500000, .i32⟩
  | .hbm, ⟨109, _⟩ => ⟨S500000, .i32⟩
  | .hbm, ⟨110, _⟩ => ⟨S500000x1, .i32⟩
  | .hbm, ⟨111, _⟩ => ⟨S500000x32, .f32⟩
  | .hbm, ⟨112, _⟩ => ⟨S_, .i32⟩
  | .hbm, ⟨113, _⟩ => ⟨S500000, .i32⟩
  | .hbm, ⟨114, _⟩ => ⟨S500000, .i1⟩
  | .hbm, ⟨115, _⟩ => ⟨S_, .i32⟩
  | .hbm, ⟨116, _⟩ => ⟨S500000, .i32⟩
  | .hbm, ⟨117, _⟩ => ⟨S500000, .i32⟩
  | .hbm, ⟨118, _⟩ => ⟨S500000, .i32⟩
  | .hbm, ⟨119, _⟩ => ⟨S500000x1, .i32⟩
  | .hbm, ⟨120, _⟩ => ⟨S500000x32, .f32⟩
  | .hbm, ⟨121, _⟩ => ⟨S500000x32, .f32⟩
  | .hbm, ⟨122, _⟩ => ⟨S1x16, .f32⟩
  | .hbm, ⟨123, _⟩ => ⟨S1x1, .f32⟩
  | .hbm, ⟨124, _⟩ => ⟨S500000x1, .f32⟩
  | .hbm, ⟨125, _⟩ => ⟨S500000, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x32, .f32⟩
  | .local _ .vmem, ⟨22, _⟩ => ⟨S1x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x16, .f32⟩
  | .local _ .vmem, ⟨35, _⟩ => ⟨S1x16, .f32⟩
  | .local _ .vmem, ⟨36, _⟩ => ⟨S16x1, .f32⟩
  | .local _ .vmem, ⟨37, _⟩ => ⟨S1x1, .f32⟩
  | .local _ .vmem, ⟨38, _⟩ => ⟨S10000x1, .f32⟩
  | .local _ .vmem, ⟨39, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_15 : Ref sig .tc := ⟨.hbm, 112, rfl⟩
abbrev main_v82 : Ref sig .tc := ⟨.hbm, 113, rfl⟩
abbrev main_v83 : Ref sig .tc := ⟨.hbm, 114, rfl⟩
abbrev main_c_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S32 : S_.BroadcastsInDim S32 (![] : Fin 0 → Fin S32.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S10000x32_S10000x32 : S10000x32.ShapeCasts S10000x32
  bcast_S_S500000 : S_.BroadcastsInDim S500000 (![] : Fin 0 → Fin S500000.rank)
  bcast_S500000_S500000x1_0 : S500000.BroadcastsInDim S500000x1 (![0] : Fin 1 → Fin S500000x1.rank)
  shapeCasts_S16_S1x16 : S16.ShapeCasts S1x16
  shapeCasts_S1_S1x1 : S1.ShapeCasts S1x1
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S500000x1_S500000x32_1_0_n_n_0_1_132_wf : GatherDims.WF S100000x32 S500000x1 S500000x32 [1] [0] [] [0] [] 1 ![1, 32]
  dot_S10000x32_S32x16_S10000x16_1_0_0_1_n_n_wf : DotDims.WF S10000x32 S32x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S500000x32.size a
  hwx5_0 : ∀ i : grid5.Coords, EltTy.bits .f32 = 32 ∨ (Rect.block (s := S500000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x16.size a ≤ S32x16.size a
  hwx5_1 : ∀ i : grid5.Coords, EltTy.bits .f32 = 32 ∨ (Rect.block (s := S32x16) S32x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x1.size a ≤ S16x1.size a
  hwx5_3 : ∀ i : grid5.Coords, EltTy.bits .f32 = 32 ∨ (Rect.block (s := S16x1) S16x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x1.size a ≤ S500000x1.size a
  hwx5_5 : ∀ i : grid5.Coords, EltTy.bits .f32 = 32 ∨ (Rect.block (s := S500000x1) S10000x1.size (cc5_transform_5 i) (hinb5_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v89) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S32x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S16x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S10000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S3200000x32 : Shape := ⟨2, ![3200000, 32]⟩
abbrev S1x32 : Shape := ⟨2, ![1, 32]⟩
abbrev S1x500000 : Shape := ⟨2, ![1, 500000]⟩
abbrev S500000 : Shape := ⟨1, ![500000]⟩
abbrev S500000x1 : Shape := ⟨2, ![500000, 1]⟩
abbrev S500000x32 : Shape := ⟨2, ![500000, 32]⟩
abbrev S500000x16 : Shape := ⟨2, ![500000, 16]⟩
abbrev S1x16 : Shape := ⟨2, ![1, 16]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S100000x32, .f32⟩
  | 1 => ⟨S2x3200000, .i32⟩
  | 2 => ⟨S2x500000, .i32⟩
  | 3 => ⟨S32x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x16, .f32⟩
  | 10 => ⟨S16, .f32⟩
  | 11 => ⟨S16x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S_, .f32⟩
  | 26 => ⟨S3200000, .f32⟩
  | 27 => ⟨S_, .f32⟩
  | 28 => ⟨S100000, .f32⟩
  | 29 => ⟨S3200000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x64, .f32⟩
  | 63 => ⟨S3200000x1, .f32⟩
  | 64 => ⟨S3200000x64, .f32⟩
  | 65 => ⟨S3200000x64, .f32⟩
  | 66 => ⟨S_, .f32⟩
  | 67 => ⟨S100000x64, .f32⟩
  | 68 => ⟨S3200000x1, .i32⟩
  | 69 => ⟨S100000x64, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x32, .f32⟩
  | 82 => ⟨S_, .f32⟩
  | 83 => ⟨S3200000, .f32⟩
  | 84 => ⟨S_, .f32⟩
  | 85 => ⟨S100000, .f32⟩
  | 86 => ⟨S3200000x1, .i32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000, .f32⟩
  | 110 => ⟨S3200000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x32, .f32⟩
  | 120 => ⟨S3200000x1, .f32⟩
  | 121 => ⟨S3200000x32, .f32⟩
  | 122 => ⟨S3200000x32, .f32⟩
  | 123 => ⟨S_, .f32⟩
  | 124 => ⟨S100000x32, .f32⟩
  | 125 => ⟨S3200000x1, .i32⟩
  | 126 => ⟨S100000x32, .f32⟩
  | 127 => ⟨S100000, .f32⟩
  | _ => ⟨S100000x32, .f32⟩

abbrev hbmTy0_1 (i : Nat) : BufTy := match i % 128 with
  | 0 => ⟨S100000x1, .f32⟩
  | 1 => ⟨S100000x32, .f32⟩
  | 2 => ⟨S100000x32, .f32⟩
  | 3 => ⟨S100000x32, .f32⟩
  | 4 => ⟨S1x32, .f32⟩
  | 5 => ⟨S100000x32, .f32⟩
  | 6 => ⟨S100000x32, .f32⟩
  | 7 => ⟨S1x500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x32, .f32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x32, .f32⟩
  | 29 => ⟨S500000x32, .f32⟩
  | 30 => ⟨S500000x16, .f32⟩
  | 31 => ⟨S1x16, .f32⟩
  | 32 => ⟨S500000x16, .f32⟩
  | 33 => ⟨S500000x16, .f32⟩
  | 34 => ⟨S_, .f32⟩
  | 35 => ⟨S500000x16, .f32⟩
  | 36 => ⟨S500000x16, .f32⟩
  | 37 => ⟨S500000x1, .f32⟩
  | 38 => ⟨S1x1, .f32⟩
  | 39 => ⟨S500000x1, .f32⟩
  | 40 => ⟨S500000x1, .f32⟩
  | 41 => ⟨S500000x1, .f32⟩
  | 42 => ⟨S500000x1, .f32⟩
  | 43 => ⟨S_, .f32⟩
  | 44 => ⟨S500000x1, .f32⟩
  | 45 => ⟨S500000x1, .f32⟩
  | 46 => ⟨S_, .f32⟩
  | 47 => ⟨S500000x1, .f32⟩
  | 48 => ⟨S500000x1, .f32⟩
  | 49 => ⟨S500000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_18 : Ref sig .tc := ⟨.hbm, 137, rfl⟩
abbrev main_v100 : Ref sig .tc := ⟨.hbm, 138, rfl⟩
abbrev main_v101 : Ref sig .tc := ⟨.hbm, 139, rfl⟩
abbrev main_c_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_20 : Ref sig .tc := ⟨.hbm, 148, rfl⟩
abbrev main_v109 : Ref sig .tc := ⟨.hbm, 149, rfl⟩
abbrev main_v110 : Ref sig .tc := ⟨.hbm, 150, rfl⟩
abbrev main_c_21 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call2_cst : Ref sig .tc := ⟨.hbm, 162, rfl⟩
abbrev main_call2_v0 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_22 : Ref sig .tc := ⟨.hbm, 171, rfl⟩
abbrev main_v128 : Ref sig .tc := ⟨.hbm, 172, rfl⟩
abbrev main_v129 : Ref sig .tc := ⟨.hbm, 173, rfl⟩
abbrev main_cst_23 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S500000x1_S500000x32_1_0_n_n_0_1_132_wf : GatherDims.WF S100000x32 S500000x1 S500000x32 [1] [0] [] [0] [] 1 ![1, 32]
  dot_S500000x32_S32x16_S500000x16_1_0_0_1_n_n_wf : DotDims.WF S500000x32 S32x16 S500000x16 [1] [0] [0] [1] [] []
  dot_S500000x16_S16x1_S500000x1_1_0_0_1_n_n_wf : DotDims.WF S500000x16 S16x1 S500000x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def dot_S500000x32_S32x16_S500000x16_1_0_0_1_n_n : DotDims S500000x32 S32x16 S500000x16 where
  lhsContracting := [1]
  rhsContracting := [0]
  lhsNonContracting := [0]
  rhsNonContracting := [1]
  lhsBatch := []
  rhsBatch := []
  wf := dot_S500000x32_S32x16_S500000x16_1_0_0_1_n_n_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf

class Facts : Prop extends Facts₀ where

variable [Facts]
-- ==== Proof.KernelRun.lean ====
/-
  THE DEVICE PROGRAM'S RUN WITH ITS RESULT NAMED.

  The program is thirteen stretches in a row: host operations, then a pipelined call, alternately, six calls in all.
  Every weakly fair execution from any memory ends, without a fault, in a state where every buffer that outlives the
  calls holds what the last stretch leaves in it — the contents 'W13', obtained from the launch memory by folding the
  stretches in order: a host stretch applies its operations, a call replaces its output array by what its grid points
  wrote back and keeps everything else. Read at the result buffer this names the program's result; read at the
  argument buffers it says they end as launched.
-/
import proofs.«147929_j72112500900411_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents and every
    argument array as launched. -/
theorem run_named : θ_run defs (onTc (τ := τ) (main (F := F))) ⟨m, fun _ => 0, ρ⟩ (fun r => ∀ c : Dev nD,
      r.2.mem ((c.tc : Thread nD τ).loc main_v93) = W13 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v93 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Named

end
-- ==== Proof.Carry.lean ====
/-
  BUFFERS THAT A STRETCH LEAVES ALONE.

  The device program's buffer contents are followed through thirteen boundaries W0 … W13: a host stretch applies its
  operations and changes only the buffers they write; a pipelined call changes only its output array. So an argument
  array holds its launch contents at every boundary, and an intermediate array — the edge endpoints, the squared
  normalisation, the edge coefficients, a call's output — holds at a later boundary what it held when it was written,
  as long as nothing in between writes it. Each statement below walks one buffer back, boundary by boundary: across a
  host stretch because none of its operations writes the buffer, across a call because the buffer is not the call's
  output (it is one of the call's inputs, kept as entered, or not among its arrays at all).
-/
import proofs.«147929_j72112500900411_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

theorem carry_arg0_1_0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem carry_arg3_1_0 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem carry_arg5_3_0 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem carry_arg6_4_0 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem carry_arg7_7_0 : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem carry_arg8_8_0 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem carry_arg9_11_0 : W11 m ρ c (Proc.devRef .tc main_arg9) = m ((c : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem carry_arg11_11_0 : W11 m ρ c (Proc.devRef .tc main_arg11) = m ((c : Thread nD τ).loc main_arg11) :=
  calc W11 m ρ c (Proc.devRef .tc main_arg11)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem carry_arg10_10_0 : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem carry_arg12_10_0 : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem carry_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem carry_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem carry_v15_4_1 : W4 m ρ c (Proc.devRef .tc main_v15) = W1 m ρ c (Proc.devRef .tc main_v15) :=
  calc W4 m ρ c (Proc.devRef .tc main_v15)
    _ = W3 m ρ c (Proc.devRef .tc main_v15) := W4_of_ne m ρ c main_v15 (by decide)
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v15) := W2_of_ne m ρ c main_v15 (by decide)

theorem carry_v30_4_1 : W4 m ρ c (Proc.devRef .tc main_v30) = W1 m ρ c (Proc.devRef .tc main_v30) :=
  calc W4 m ρ c (Proc.devRef .tc main_v30)
    _ = W3 m ρ c (Proc.devRef .tc main_v30) := W4_of_ne m ρ c main_v30 (by decide)
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem carry_v1_8_4 : W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_8_4 : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v15_8_4 : W8 m ρ c (Proc.devRef .tc main_v15) = W4 m ρ c (Proc.devRef .tc main_v15) :=
  calc W8 m ρ c (Proc.devRef .tc main_v15)
    _ = W7 m ρ c (Proc.devRef .tc main_v15) := W8_of_ne m ρ c main_v15 (by decide)
    _ = W6 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := W6_of_ne m ρ c main_v15 (by decide)
    _ = W4 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v30_8_4 : W8 m ρ c (Proc.devRef .tc main_v30) = W4 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v5_10_1 : W10 m ρ c (Proc.devRef .tc main_v5) = W1 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

theorem carry_v7_10_1 : W10 m ρ c (Proc.devRef .tc main_v7) = W1 m ρ c (Proc.devRef .tc main_v7) :=
  calc W10 m ρ c (Proc.devRef .tc main_v7)
    _ = W9 m ρ c (Proc.devRef .tc main_v7) := W10_of_ne m ρ c main_v7 (by decide)
    _ = W8 m ρ c (Proc.devRef .tc main_v7) := StableHlo.after_of_forall_not_mem (b := Proc.devRef .tc main_v7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v7) := W8_of_ne m ρ c main_v7 (by decide)
    _ = W6 m ρ c (Proc.devRef .tc main_v7) := StableHlo.after_of_forall_not_mem (b := Proc.devRef .tc main_v7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

theorem carry_v32_3_2 : W3 m ρ c (Proc.devRef .tc main_v32) = W2 m ρ c (Proc.devRef .tc main_v32) :=
  calc W3 m ρ c (Proc.devRef .tc main_v32)
    _ = W2 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v53_7_6 : W7 m ρ c (Proc.devRef .tc main_v53) = W6 m ρ c (Proc.devRef .tc main_v53) :=
  calc W7 m ρ c (Proc.devRef .tc main_v53)
    _ = W6 m ρ c (Proc.devRef .tc main_v53) := StableHlo.after_of_forall_not_mem (b := Proc.devRef .tc main_v53) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibLayerForms.lean ====
/-
  ONE GRAPH-CONVOLUTION LAYER'S TWO DENSE STEPS AS WHOLE-ARRAY FUNCTIONS, index by index on the extended reals.

  `dense X W` is the matrix product: entry (p, q) is the sum over k of X (p, k) · W (k, q).
  `combine agg h b s` adds, to the collected neighbour messages `agg`, the node's own features scaled by its
  self-loop weight — row p of `h` times the p-th entry of the one-column array `s` — and then the bias, the one-row
  array `b` laid along every row: entry (p, q) is (agg (p, q) + h (p, q) · s (p, 0)) + b (0, q).
  `combineRelu` is the larger of that and zero.

  The host spells the same arrays with broadcasts: the product is its `dot_general`; the scale is a vector broadcast
  first to a column and then across the columns, the bias a vector broadcast first to a row and then down the rows.
  Recasting a vector of n entries as a column (n × 1) or as a row (1 × n) keeps entry p at (p, 0), respectively (0, p),
  so the host's sums are `combine` of the recast vectors. No law of arithmetic is used: every entry is the same
  expression on both sides.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«147929_j72112500900411_2_alg».proof.Proof.LibMatOps
import proofs.«147929_j72112500900411_2_alg».proof.Proof.LibColumnCast

noncomputable section

open scoped BigOperators

namespace Cert.LayerForms

open Idealize.ShloMosaic Idealize.ShloMosaic.ValueIdx

section
variable {N K C : Nat}

/-- The matrix product, entry by entry. -/
def dense (X : FVec Ideal ⟨2, ![N, K]⟩ .f32) (W : FVec Ideal ⟨2, ![K, C]⟩ .f32) : FVec Ideal ⟨2, ![N, C]⟩ .f32 :=
  fun i => ∑ k : Fin K, X (ix2 (i 0 : Fin N) k) * W (ix2 k (i 1 : Fin C))

theorem dense_apply (X : FVec Ideal ⟨2, ![N, K]⟩ .f32) (W : FVec Ideal ⟨2, ![K, C]⟩ .f32) (p : Fin N) (q : Fin C) :
    dense X W (ix2 p q) = ∑ k : Fin K, X (ix2 p k) * W (ix2 k q) := rfl

/-- The host's plain product of an N × K by a K × C array is `dense`. -/
theorem dotGeneral_eq_dense (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] [])
    (hd : d = Cert.MatOps.plainDot N K C wf)
    (X : FVec Ideal ⟨2, ![N, K]⟩ .f32) (W : FVec Ideal ⟨2, ![K, C]⟩ .f32) :
    Host.dotGeneral d none X W = dense X W := by
  subst hd
  funext i
  obtain ⟨p, q, rfl⟩ : ∃ (p : Fin N) (q : Fin C), i = ix2 p q := ⟨i 0, i 1, eq_ix2 i⟩
  exact Cert.MatOps.dotGeneral_plain_apply wf none _ X W p q

/-- Messages plus the scaled own features plus the bias, entry by entry. -/
def combine (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => (agg i + h i * s (ix2 (i 0 : Fin N) (0 : Fin 1))) + b (ix2 (0 : Fin 1) (i 1 : Fin C))

/-- The same, cut off below at zero. -/
def combineRelu (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => max (combine agg h b s i) (Ideal.ofBits .f32 0x00000000#32)

/-- A vector broadcast to a column and then across C columns reads, at (p, q), its entry p. -/
theorem column_then_across (sv : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 sv) (ix2 p q) = sv (ix1 p) := by
  refine (broadcastInDim_apply ![0, 1] h2 _ (ix2 p q) (ix2 p (0 : Fin 1)) fun a => ?_).trans
    (broadcastInDim_apply ![0] h1 sv (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A vector broadcast to a row and then down N rows reads, at (p, q), its entry q. -/
theorem row_then_down (bv : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 bv) (ix2 p q) = bv (ix1 q) := by
  refine (broadcastInDim_oneRow_apply h2 _ p q).trans
    (broadcastInDim_apply ![1] h1 bv (ix2 (0 : Fin 1) q) (ix1 q) fun a => ?_)
  match a with
  | ⟨0, _⟩ =>
    show q.val = if C = 1 then 0 else q.val
    split
    · have := q.isLt; omega
    · rfl

/-- The host's spelling of one layer's last step — the scale broadcast to a column and across, the bias to a row and
    down — is `combine` of the vectors recast as a column and as a row. -/
theorem host_combine (agg h : FVec Ideal ⟨2, ![N, C]⟩ .f32) (bv : FVec Ideal ⟨1, ![C]⟩ .f32) (sv : FVec Ideal ⟨1, ![N]⟩ .f32)
    (hs1 : (⟨1, ![N]⟩ : Shape).BroadcastsInDim ⟨2, ![N, 1]⟩ ![0])
    (hs2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (cs : (⟨1, ![N]⟩ : Shape).ShapeCasts ⟨2, ![N, 1]⟩) (cb : (⟨1, ![C]⟩ : Shape).ShapeCasts ⟨2, ![1, C]⟩) :
    addf (addf agg (mulf h (broadcastInDim ⟨2, ![N, C]⟩ ![0, 1] hs2 (broadcastInDim ⟨2, ![N, 1]⟩ ![0] hs1 sv))))
        (broadcastInDim ⟨2, ![N, C]⟩ ![0, 1] hb2 (broadcastInDim ⟨2, ![1, C]⟩ ![1] hb1 bv))
      = combine agg h (shapeCast ⟨2, ![1, C]⟩ bv cb) (shapeCast ⟨2, ![N, 1]⟩ sv cs) := by
  funext i
  obtain ⟨p, q, rfl⟩ : ∃ (p : Fin N) (q : Fin C), i = ix2 p q := ⟨i 0, i 1, eq_ix2 i⟩
  show (agg (ix2 p q) + h (ix2 p q) * broadcastInDim ⟨2, ![N, C]⟩ ![0, 1] hs2 (broadcastInDim ⟨2, ![N, 1]⟩ ![0] hs1 sv) (ix2 p q))
      + broadcastInDim ⟨2, ![N, C]⟩ ![0, 1] hb2 (broadcastInDim ⟨2, ![1, C]⟩ ![1] hb1 bv) (ix2 p q)
    = (agg (ix2 p q) + h (ix2 p q) * shapeCast ⟨2, ![N, 1]⟩ sv cs (ix2 p (0 : Fin 1)))
      + shapeCast ⟨2, ![1, C]⟩ bv cb (ix2 (0 : Fin 1) q)
  rw [column_then_across sv hs1 hs2 p q, row_then_down bv hb1 hb2 p q,
    Cert.LibColumnCast.column_cast sv cs p 0, shapeCast_a_1a_apply bv cb (0 : Fin 1) q]

/-- The host's cut-off at zero of an array is the entrywise larger of it and zero. -/
theorem host_relu (x : FVec Ideal ⟨2, ![N, C]⟩ .f32) (h0 : (⟨0, ![]⟩ : Shape).BroadcastsInDim ⟨2, ![N, C]⟩ ![]) :
    maximumf x (broadcastInDim ⟨2, ![N, C]⟩ ![] h0 (constant (F := Ideal) ⟨0, ![]⟩ .f32 0x00000000#32))
      = fun i => max (x i) (Ideal.ofBits .f32 0x00000000#32) := by
  funext i
  show max (x i) (broadcastInDim ⟨2, ![N, C]⟩ ![] h0 (constant (F := Ideal) ⟨0, ![]⟩ .f32 0x00000000#32) i) = _
  rw [broadcastInDim_apply ![] h0 _ i ix0 (fun a => a.elim0)]
  rfl

end

end Cert.LayerForms

end
-- ==== Proof.LibDenseStages.lean ====
/-
  THE DENSE STEPS OF A GRAPH NETWORK, ENTRY BY ENTRY ON THE EXTENDED REALS.

  A node layer sends an array X (one row per node) to X · W + b: entry (p, q) is the sum over k of
  X (p, k) · W (k, q), plus entry q of the bias, which is stored as a one-row array ('affine'); 'affineRelu' is the
  larger of that and zero. After the neighbours' messages are collected, a layer adds the collected array, the node's
  own scaled features and the bias ('addBias'), again possibly cut off below at zero ('addBiasRelu'). The edge scorer
  applies an affine step cut off at zero, a second affine step onto one column, and the logistic function
  x ↦ 1 / (1 + e^(-x)) ('score').

  Each formula mentions only the row p of its inputs, so a block of rows of the result is the same formula applied to
  that block of rows: this is why a device program that works through the rows ten thousand at a time and a host
  program that treats the whole array at once compute the same array. The host spells the bias by broadcasting a
  vector to one row and then down all rows, the device by broadcasting its one-row block; zero is the float pattern
  of all zero bits, and adding it changes nothing; the logistic function is by definition the quotient the host
  spells out. No law of arithmetic beyond x + 0 = x is used: both spellings are the same expression entry by entry.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«147929_j72112500900411_2_alg».proof.Proof.LibLayerForms

noncomputable section

open scoped BigOperators

namespace Cert.DenseStages

open Idealize.ShloMosaic Idealize.ShloMosaic.ValueIdx Cert.LayerForms Cert.MatOps

/-! ## The stages -/

section
variable {N K C : Nat}

/-- X · W plus the one-row bias laid along every row. -/
def affine (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => dense X W i + b (ix2 (0 : Fin 1) (i 1 : Fin C))

/-- The same, cut off below at zero. -/
def affineRelu (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => max (affine X W b i) (Ideal.ofBits .f32 0x00000000#32)

/-- Collected messages plus the node's own scaled features plus the one-row bias. -/
def addBias (A S : FVec Ideal ⟨2, ![N, C]⟩ .f32) (b : FVec Ideal ⟨2, ![1, C]⟩ .f32) : FVec Ideal ⟨2, ![N, C]⟩ .f32 :=
  fun i => (A i + S i) + b (ix2 (0 : Fin 1) (i 1 : Fin C))

/-- The same, cut off below at zero. -/
def addBiasRelu (A S : FVec Ideal ⟨2, ![N, C]⟩ .f32) (b : FVec Ideal ⟨2, ![1, C]⟩ .f32) : FVec Ideal ⟨2, ![N, C]⟩ .f32 :=
  fun i => max (addBias A S b i) (Ideal.ofBits .f32 0x00000000#32)

theorem affine_apply (X : FVec Ideal ⟨2, ![N, K]⟩ .f32) (W : FVec Ideal ⟨2, ![K, C]⟩ .f32) (b : FVec Ideal ⟨2, ![1, C]⟩ .f32)
    (p : Fin N) (q : Fin C) :
    affine X W b (ix2 p q) = (∑ k : Fin K, X (ix2 p k) * W (ix2 k q)) + b (ix2 (0 : Fin 1) q) := rfl

theorem affineRelu_apply (X : FVec Ideal ⟨2, ![N, K]⟩ .f32) (W : FVec Ideal ⟨2, ![K, C]⟩ .f32) (b : FVec Ideal ⟨2, ![1, C]⟩ .f32)
    (p : Fin N) (q : Fin C) :
    affineRelu X W b (ix2 p q)
      = max ((∑ k : Fin K, X (ix2 p k) * W (ix2 k q)) + b (ix2 (0 : Fin 1) q)) (Ideal.ofBits .f32 0x00000000#32) := rfl

theorem addBias_apply (A S : FVec Ideal ⟨2, ![N, C]⟩ .f32) (b : FVec Ideal ⟨2, ![1, C]⟩ .f32) (p : Fin N) (q : Fin C) :
    addBias A S b (ix2 p q) = (A (ix2 p q) + S (ix2 p q)) + b (ix2 (0 : Fin 1) q) := rfl

theorem addBiasRelu_apply (A S : FVec Ideal ⟨2, ![N, C]⟩ .f32) (b : FVec Ideal ⟨2, ![1, C]⟩ .f32) (p : Fin N) (q : Fin C) :
    addBiasRelu A S b (ix2 p q)
      = max ((A (ix2 p q) + S (ix2 p q)) + b (ix2 (0 : Fin 1) q)) (Ideal.ofBits .f32 0x00000000#32) := rfl

end

/-- The edge scorer: an affine step cut off at zero, an affine step onto one column, the logistic function. -/
def score {N K H : Nat} (E : FVec Ideal ⟨2, ![N, K]⟩ .f32) (W1 : FVec Ideal ⟨2, ![K, H]⟩ .f32) (b1 : FVec Ideal ⟨2, ![1, H]⟩ .f32)
    (W2 : FVec Ideal ⟨2, ![H, 1]⟩ .f32) (b2 : FVec Ideal ⟨2, ![1, 1]⟩ .f32) : FVec Ideal ⟨2, ![N, 1]⟩ .f32 :=
  fun i => Ideal.logistic (affine (affineRelu E W1 b1) W2 b2 i)

/-! ## A block of rows of a stage is the stage of the block of rows

Each lemma reads the stage of the whole arrays at row 'r p' where the block's row p sits; the inputs that are not cut
into rows (the weights, the bias) are the same on both sides. -/

section
variable {M N K C : Nat}

theorem affine_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affine x W b (ix2 p q) = affine X W b (ix2 (r p) q) := by
  rw [affine_apply, affine_apply]
  simp only [hx]

theorem affineRelu_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affineRelu x W b (ix2 p q) = affineRelu X W b (ix2 (r p) q) := by
  rw [affineRelu_apply, affineRelu_apply]
  simp only [hx]

theorem addBias_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBias a s b (ix2 p q) = addBias A S b (ix2 (r p) q) := by
  rw [addBias_apply, addBias_apply, ha, hs]

theorem addBiasRelu_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBiasRelu a s b (ix2 p q) = addBiasRelu A S b (ix2 (r p) q) := by
  rw [addBiasRelu_apply, addBiasRelu_apply, ha, hs]

end

theorem score_rows {M N K H : Nat} (E : FVec Ideal ⟨2, ![N, K]⟩ .f32) (W1 : FVec Ideal ⟨2, ![K, H]⟩ .f32)
    (b1 : FVec Ideal ⟨2, ![1, H]⟩ .f32) (W2 : FVec Ideal ⟨2, ![H, 1]⟩ .f32) (b2 : FVec Ideal ⟨2, ![1, 1]⟩ .f32)
    (e : FVec Ideal ⟨2, ![M, K]⟩ .f32) (r : Fin M → Fin N) (he : ∀ p k, e (ix2 p k) = E (ix2 (r p) k)) (p : Fin M) (q : Fin 1) :
    score e W1 b1 W2 b2 (ix2 p q) = score E W1 b1 W2 b2 (ix2 (r p) q) := by
  show Ideal.logistic (affine (affineRelu e W1 b1) W2 b2 (ix2 p q)) = Ideal.logistic (affine (affineRelu E W1 b1) W2 b2 (ix2 (r p) q))
  rw [affine_rows (affineRelu E W1 b1) W2 b2 (affineRelu e W1 b1) r (fun p' k => affineRelu_rows E W1 b1 e r he p' k) p q]

/-! ## The host's spelling -/

section
variable {N K C : Nat}

/-- A matrix product plus a vector broadcast to a row and down the rows is 'affine' of the vector recast as a row. -/
theorem host_affine (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (Host.dotGeneral d none X W) (broadcastInDim ⟨2, ![N, C]⟩ ![0, 1] hb2 (broadcastInDim ⟨2, ![1, C]⟩ ![1] hb1 bv))
      = affine X W (shapeCast ⟨2, ![1, C]⟩ bv cb) := by
  rw [dotGeneral_eq_dense d wf hd]
  funext i
  obtain ⟨p, q, rfl⟩ : ∃ (p : Fin N) (q : Fin C), i = ix2 p q := ⟨i 0, i 1, eq_ix2 i⟩
  show dense X W (ix2 p q) + broadcastInDim ⟨2, ![N, C]⟩ ![0, 1] hb2 (broadcastInDim ⟨2, ![1, C]⟩ ![1] hb1 bv) (ix2 p q)
    = dense X W (ix2 p q) + shapeCast ⟨2, ![1, C]⟩ bv cb (ix2 (0 : Fin 1) q)
  rw [row_then_down bv hb1 hb2 p q, shapeCast_a_1a_apply bv cb (0 : Fin 1) q]

/-- The same cut off at zero by the host's maximum against a broadcast zero. -/
theorem host_affineRelu (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (Host.dotGeneral d none X W) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = affineRelu X W (shapeCast ⟨2, ![1, C]⟩ bv cb) := by
  rw [host_relu, host_affine d wf hd X W bv hb1 hb2 cb]
  rfl

/-- A matrix product alone is 'affine' with the bias a vector of zeros recast as a row: adding zero changes nothing. -/
theorem host_product (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32)
    (hz : (⟨0, ![]⟩ : Shape).BroadcastsInDim ⟨1, ![C]⟩ ![])
    (cb : (⟨1, ![C]⟩ : Shape).ShapeCasts ⟨2, ![1, C]⟩) :
    Host.dotGeneral d none X W
      = affine X W (shapeCast ⟨2, ![1, C]⟩ (broadcastInDim ⟨1, ![C]⟩ ![] hz (constant (F := Ideal) ⟨0, ![]⟩ .f32 0x00000000#32)) cb) := by
  rw [dotGeneral_eq_dense d wf hd]
  funext i
  obtain ⟨p, q, rfl⟩ : ∃ (p : Fin N) (q : Fin C), i = ix2 p q := ⟨i 0, i 1, eq_ix2 i⟩
  show dense X W (ix2 p q) = dense X W (ix2 p q) + shapeCast ⟨2, ![1, C]⟩ _ cb (ix2 (0 : Fin 1) q)
  rw [shapeCast_a_1a_apply _ cb (0 : Fin 1) q, broadcastInDim_apply ![] hz _ (ix1 q) ix0 (fun a => a.elim0)]
  show dense X W (ix2 p q) = dense X W (ix2 p q) + Ideal.ofBits .f32 0x00000000#32
  rw [Ideal.ofBits_zero_f32, add_zero]

/-- The host's closing step of a layer. -/
theorem host_addBias (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (addf A S) (broadcastInDim ⟨2, ![N, C]⟩ ![0, 1] hb2 (broadcastInDim ⟨2, ![1, C]⟩ ![1] hb1 bv))
      = addBias A S (shapeCast ⟨2, ![1, C]⟩ bv cb) := by
  funext i
  obtain ⟨p, q, rfl⟩ : ∃ (p : Fin N) (q : Fin C), i = ix2 p q := ⟨i 0, i 1, eq_ix2 i⟩
  show (A (ix2 p q) + S (ix2 p q)) + broadcastInDim ⟨2, ![N, C]⟩ ![0, 1] hb2 (broadcastInDim ⟨2, ![1, C]⟩ ![1] hb1 bv) (ix2 p q)
    = (A (ix2 p q) + S (ix2 p q)) + shapeCast ⟨2, ![1, C]⟩ bv cb (ix2 (0 : Fin 1) q)
  rw [row_then_down bv hb1 hb2 p q, shapeCast_a_1a_apply bv cb (0 : Fin 1) q]

/-- The same cut off at zero. -/
theorem host_addBiasRelu (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (addf A S) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = addBiasRelu A S (shapeCast ⟨2, ![1, C]⟩ bv cb) := by
  rw [host_relu, host_addBias A S bv hb1 hb2 cb]
  rfl

end

/-- The float pattern of one is the number one. -/
theorem one_f32 : Ideal.ofBits .f32 0x3F800000#32 = 1 := by
  simp [Ideal.ofBits, Ideal.ieee, -EReal.coe_mul]; norm_num

/-- The host's quotient 1 / (1 + e^(-y)), entry by entry, is the logistic function of y. -/
theorem host_logistic {s : Shape} (y : FVec Ideal s .f32) (h1 : (⟨0, ![]⟩ : Shape).BroadcastsInDim s ![]) :
    Host.divf (broadcastInDim s ![] h1 (constant (F := Ideal) ⟨0, ![]⟩ .f32 0x3F800000#32))
        (addf (broadcastInDim s ![] h1 (constant (F := Ideal) ⟨0, ![]⟩ .f32 0x3F800000#32)) (Host.exp (Host.negf y)))
      = fun i => Ideal.logistic (y i) := by
  funext i
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(y i))) = _
  rw [broadcastInDim_apply ![] h1 _ i ix0 (fun a => a.elim0)]
  show Ideal.div (Ideal.ofBits .f32 0x3F800000#32) (Ideal.ofBits .f32 0x3F800000#32 + Ideal.exp (-(y i))) = Ideal.logistic (y i)
  rw [one_f32]
  rfl

/-- The host's edge scorer. -/
theorem host_score {N K H : Nat}
    (d1 : DotDims ⟨2, ![N, K]⟩ ⟨2, ![K, H]⟩ ⟨2, ![N, H]⟩)
    (wf1 : DotDims.WF ⟨2, ![N, K]⟩ ⟨2, ![K, H]⟩ ⟨2, ![N, H]⟩ [1] [0] [0] [1] [] []) (hd1 : d1 = plainDot N K H wf1)
    (d2 : DotDims ⟨2, ![N, H]⟩ ⟨2, ![H, 1]⟩ ⟨2, ![N, 1]⟩)
    (wf2 : DotDims.WF ⟨2, ![N, H]⟩ ⟨2, ![H, 1]⟩ ⟨2, ![N, 1]⟩ [1] [0] [0] [1] [] []) (hd2 : d2 = plainDot N H 1 wf2)
    (E : FVec Ideal ⟨2, ![N, K]⟩ .f32) (W1 : FVec Ideal ⟨2, ![K, H]⟩ .f32) (b1 : FVec Ideal ⟨1, ![H]⟩ .f32)
    (W2 : FVec Ideal ⟨2, ![H, 1]⟩ .f32) (b2 : FVec Ideal ⟨1, ![1]⟩ .f32)
    (hb1 : (⟨1, ![H]⟩ : Shape).BroadcastsInDim ⟨2, ![1, H]⟩ ![1])
    (hb2 : (⟨2, ![1, H]⟩ : Shape).BroadcastsInDim ⟨2, ![N, H]⟩ ![0, 1])
    (h0 : (⟨0, ![]⟩ : Shape).BroadcastsInDim ⟨2, ![N, H]⟩ ![])
    (cb1 : (⟨1, ![H]⟩ : Shape).ShapeCasts ⟨2, ![1, H]⟩)
    (hc1 : (⟨1, ![1]⟩ : Shape).BroadcastsInDim ⟨2, ![1, 1]⟩ ![1])
    (hc2 : (⟨2, ![1, 1]⟩ : Shape).BroadcastsInDim ⟨2, ![N, 1]⟩ ![0, 1])
    (h1 : (⟨0, ![]⟩ : Shape).BroadcastsInDim ⟨2, ![N, 1]⟩ ![])
    (cb2 : (⟨1, ![1]⟩ : Shape).ShapeCasts ⟨2, ![1, 1]⟩) :
    Host.divf (broadcastInDim ⟨2, ![N, 1]⟩ ![] h1 (constant (F := Ideal) ⟨0, ![]⟩ .f32 0x3F800000#32))
        (addf (broadcastInDim ⟨2, ![N, 1]⟩ ![] h1 (constant (F := Ideal) ⟨0, ![]⟩ .f32 0x3F800000#32))
          (Host.exp (Host.negf
            (addf (Host.dotGeneral d2 none
                (maximumf (addf (Host.dotGeneral d1 none E W1)
                    (broadcastInDim ⟨2, ![N, H]⟩ ![0, 1] hb2 (broadcastInDim ⟨2, ![1, H]⟩ ![1] hb1 b1)))
                  (broadcastInDim ⟨2, ![N, H]⟩ ![] h0 (constant (F := Ideal) ⟨0, ![]⟩ .f32 0x00000000#32))) W2)
              (broadcastInDim ⟨2, ![N, 1]⟩ ![0, 1] hc2 (broadcastInDim ⟨2, ![1, 1]⟩ ![1] hc1 b2))))))
      = score E W1 (shapeCast ⟨2, ![1, H]⟩ b1 cb1) W2 (shapeCast ⟨2, ![1, 1]⟩ b2 cb2) := by
  rw [host_logistic, host_affineRelu d1 wf1 hd1 E W1 b1 hb1 hb2 h0 cb1,
    host_affine d2 wf2 hd2 _ W2 b2 hc1 hc2 cb2]
  rfl

/-! ## The device's spelling, on one block of rows -/

section
variable {M K C : Nat}

/-- The matrix unit accumulating into zeros (its operands first narrowed to sixteen bits, which changes no number
    here), plus the one-row bias block broadcast down the rows. -/
theorem device_affine (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb)
      = affine x w b := by
  subst hd
  funext i
  obtain ⟨p, q, rfl⟩ : ∃ (p : Fin M) (q : Fin C), i = ix2 p q := ⟨i 0, i 1, eq_ix2 i⟩
  show FloatOps.matmul (plainDot M K C wf) none (truncf .bf16 x hlt) (truncf .bf16 w hlt)
        (constant (F := Ideal) ⟨2, ![M, C]⟩ .f32 0x00000000#32) (ix2 p q)
      + broadcastTo ⟨2, ![M, C]⟩ (shapeCast ⟨2, ![1, C]⟩ b hc) hb (ix2 p q) = _
  rw [matmul_plain_apply wf none _ _ p q, broadcastTo_1b_ab_apply _ hb p q, shapeCast_self b hc]
  rfl

/-- The same cut off at zero by the device's maximum against a splat zero. -/
theorem device_affineRelu (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    maximumf (addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine d wf hd x w b hlt hc hb]
  rfl

/-- The same with the block of rows first recast onto its own shape, which changes nothing. -/
theorem device_affine_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb)
      = affine x w b := by
  rw [shapeCast_self x hm]
  exact device_affine d wf hd x w b hlt hc hb

theorem device_affineRelu_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    maximumf (addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine_cast d wf hd x w b hlt hm hc hb]
  rfl

/-- The device's closing step of a layer on a block of rows (the two recasts of a block onto its own shape change
    nothing). -/
theorem device_addBias (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    addf (addf (shapeCast ⟨2, ![M, C]⟩ a hm) (shapeCast ⟨2, ![M, C]⟩ s hm)) (broadcastTo ⟨2, ![M, C]⟩ (shapeCast ⟨2, ![1, C]⟩ b hc) hb)
      = addBias a s b := by
  rw [shapeCast_self a hm, shapeCast_self s hm, shapeCast_self b hc]
  funext i
  obtain ⟨p, q, rfl⟩ : ∃ (p : Fin M) (q : Fin C), i = ix2 p q := ⟨i 0, i 1, eq_ix2 i⟩
  show (a (ix2 p q) + s (ix2 p q)) + broadcastTo ⟨2, ![M, C]⟩ b hb (ix2 p q) = _
  rw [broadcastTo_1b_ab_apply b hb p q]
  rfl

theorem device_addBiasRelu (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    maximumf (addf (addf (shapeCast ⟨2, ![M, C]⟩ a hm) (shapeCast ⟨2, ![M, C]⟩ s hm))
        (broadcastTo ⟨2, ![M, C]⟩ (shapeCast ⟨2, ![1, C]⟩ b hc) hb))
      (broadcast ⟨2, ![M, C]⟩ (Scalar.ofBits (F := Ideal) .f32 0x00000000#32))
      = addBiasRelu a s b := by
  rw [device_addBias a s b hm hc hb]
  rfl

end

/-- The device's edge scorer on a block of rows: the two affine steps through the matrix unit, the device's logistic
    operation at the end. -/
theorem device_score {M K H : Nat}
    (d1 : DotDims ⟨2, ![M, K]⟩ ⟨2, ![K, H]⟩ ⟨2, ![M, H]⟩)
    (wf1 : DotDims.WF ⟨2, ![M, K]⟩ ⟨2, ![K, H]⟩ ⟨2, ![M, H]⟩ [1] [0] [0] [1] [] []) (hd1 : d1 = plainDot M K H wf1)
    (d2 : DotDims ⟨2, ![M, H]⟩ ⟨2, ![H, 1]⟩ ⟨2, ![M, 1]⟩)
    (wf2 : DotDims.WF ⟨2, ![M, H]⟩ ⟨2, ![H, 1]⟩ ⟨2, ![M, 1]⟩ [1] [0] [0] [1] [] []) (hd2 : d2 = plainDot M H 1 wf2)
    (x : FVec Ideal ⟨2, ![M, K]⟩ .f32) (w1 : FVec Ideal ⟨2, ![K, H]⟩ .f32) (b1 : FVec Ideal ⟨2, ![1, H]⟩ .f32)
    (w2 : FVec Ideal ⟨2, ![H, 1]⟩ .f32) (b2 : FVec Ideal ⟨2, ![1, 1]⟩ .f32)
    (hlt : FTy.bf16.bits < FTy.f32.bits) (hm : (⟨2, ![M, K]⟩ : Shape).ShapeCasts ⟨2, ![M, K]⟩)
    (hc1 : (⟨2, ![1, H]⟩ : Shape).ShapeCasts ⟨2, ![1, H]⟩) (hb1 : (⟨2, ![1, H]⟩ : Shape).Broadcasts ⟨2, ![M, H]⟩)
    (hc2 : (⟨2, ![1, 1]⟩ : Shape).ShapeCasts ⟨2, ![1, 1]⟩) (hb2 : (⟨2, ![1, 1]⟩ : Shape).Broadcasts ⟨2, ![M, 1]⟩) :
    logistic (addf (matmul d2 none
          (truncf .bf16 (maximumf (addf (matmul d1 none (truncf .bf16 (shapeCast ⟨2, ![M, K]⟩ x hm) hlt) (truncf .bf16 w1 hlt)
                (constant (F := Ideal) ⟨2, ![M, H]⟩ .f32 0x00000000#32))
              (broadcastTo ⟨2, ![M, H]⟩ (shapeCast ⟨2, ![1, H]⟩ b1 hc1) hb1))
            (broadcast ⟨2, ![M, H]⟩ (Scalar.ofBits (F := Ideal) .f32 0x00000000#32))) hlt)
          (truncf .bf16 w2 hlt) (constant (F := Ideal) ⟨2, ![M, 1]⟩ .f32 0x00000000#32))
        (broadcastTo ⟨2, ![M, 1]⟩ (shapeCast ⟨2, ![1, 1]⟩ b2 hc2) hb2))
      = score x w1 b1 w2 b2 := by
  rw [device_affineRelu_cast d1 wf1 hd1 x w1 b1 hlt hm hc1 hb1, device_affine d2 wf2 hd2 (affineRelu x w1 b1) w2 b2 hlt hc2 hb2]
  rfl

end Cert.DenseStages

end
-- ==== Proof.Encoder.lean ====
/-
  THE NODE ENCODER'S OUTPUT ARRAY (the first pipelined call).

  The call walks the 100000 node rows in ten blocks of 10000. At block t it reads rows 10000·t … 10000·t + 9999 of the
  features, the whole 32 × 64 weight and the one-row bias, and writes back the same rows of the result: each entry
  (p, q) of the block is max (Σ_k x (p, k) · w (k, q) + b (0, q), 0). That formula mentions only row p of the features,
  so what block t writes back is rows 10000·t … of the one whole-array function 'affineRelu' of the three arrays as
  the call finds them; the ten blocks tile the result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.Encoder

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'affineRelu' of the three loaded blocks. -/
theorem pay_eq (x0 : Vec Ideal S10000x32 .f32) (x1 : Vec Ideal S32x64 .f32) (x2 : Vec Ideal S1x64 .f32) :
    k0_pay1 x0 x1 x2 = affineRelu (N := 10000) (K := 32) (C := 64) x0 x1 x2 :=
  device_affineRelu dot_S10000x32_S32x64_S10000x64_1_0_0_1_n_n Facts₀.dot_S10000x32_S32x64_S10000x64_1_0_0_1_n_n_wf rfl x0 x1 x2 _ _ _

/-- One entry of a block: if the feature block holds rows 'r p' of the array A, and the other two blocks are the
    whole weight and bias, the stored entry (p, q) is entry (r p, q) of 'affineRelu A W b'. -/
theorem point_eq (A : FVec Ideal S100000x32 .f32) (W : FVec Ideal S32x64 .f32) (b : FVec Ideal S1x64 .f32)
    (x0 : Vec Ideal S10000x32 .f32) (x1 : Vec Ideal S32x64 .f32) (x2 : Vec Ideal S1x64 .f32)
    (r : Fin 10000 → Fin 100000) (h0 : ∀ (p : Fin 10000) (k : Fin 32), x0 (ix2 p k) = A (ix2 (r p) k))
    (h1 : x1 = W) (h2 : x2 = b) (p : Fin 10000) (q : Fin 64) :
    k0_pay1 x0 x1 x2 (ix2 p q) = affineRelu (N := 100000) (K := 32) (C := 64) A W b (ix2 (r p) q) := by
  subst h1 h2
  rw [pay_eq]
  exact affineRelu_rows A x1 x2 x0 r h0 p q

/-- The printed index maps over the ten grid points: the feature and result blocks move with the point, the weight
    and bias blocks stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row of the whole array at which row p of block t sits. -/
def row (t : Fin cfg0.N) (p : Fin 10000) : Fin 100000 :=
  ⟨t.val * 10000 + p.val, by have ht : t.val < 10 := t.isLt; have hp := p.isLt; omega⟩

/-- WHAT POINT t WRITES BACK is block t of 'affineRelu' of the arrays as the call finds them. -/
theorem flushed (c : Dev nD) (t : Fin cfg0.N) :
    (dat0 V c).flushed 3 t = ((cfg0.win 3).blk t).view.read (Elt Ideal)
      (affineRelu (N := 100000) (K := 32) (C := 64) (V c main_arg0) (V c main_arg3) (V c main_v31)) := by
  show (cfg0.win 3).cut (grid0.coords t) ((dat0 V c).after 3 t) = _
  rw [after0_3]
  unfold out0_3
  rw [View.canon_unit_zero hz]
  simp only [View.ld_unit_zero (S := S10000x32) hz, View.ld_unit_zero (S := S32x64) hz, View.ld_unit_zero (S := S1x64) hz]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  have hemb : ((cfg0.win 3).blk t).view.emb (ix2 p q) = ix2 (row t p) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (iblk0 V c 0 t) (iblk0 V c 1 t) (iblk0 V c 2 t) (ix2 p q)
    = affineRelu (N := 100000) (K := 32) (C := 64) (V c main_arg0) (V c main_arg3) (V c main_v31) (((cfg0.win 3).blk t).view.emb (ix2 p q))
  rw [hemb]
  refine point_eq (V c main_arg0) (V c main_arg3) (V c main_v31) _ _ _ (row t) (fun p' k => ?_) ?_ ?_ p q
  · show V c main_arg0 (((cfg0.win 0).blk t).view.emb (ix2 p' k)) = V c main_arg0 (ix2 (row t p') k)
    refine congrArg (V c main_arg0) ?_
    funext a; apply Fin.ext
    match a with
    | ⟨0, _⟩ => show win0_0.index t (0 : Fin 2) * 10000 + 1 * p'.val = t.val * 10000 + p'.val; omega
    | ⟨1, _⟩ => show win0_0.index t (1 : Fin 2) * 32 + 1 * k.val = k.val; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 32 + 1 * (y 0).val = (y 0).val; omega
    | ⟨1, _⟩ => show win0_1.index t (1 : Fin 2) * 64 + 1 * (y 1).val = (y 1).val; omega
  · funext y
    show V c main_v31 (((cfg0.win 2).blk t).view.emb y) = V c main_v31 y
    refine congrArg (V c main_v31) ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega

/-- An index of the result array is in point t's block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v32).slice (win0_3.rect t)).set ↔ _
  rw [View.set_slice_whole, Rect.mem_set_unit]
  exact Iff.rfl

/-- Every entry of the result lies in some point's block: row n in block n / 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨e00, e01, e10, e11, e20, e21, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the call: 'affineRelu' of the three arrays as the call finds them. -/
theorem final (c : Dev nD) :
    (dat0 V c).arrAt 3 cfg0.N = affineRelu (N := 100000) (K := 32) (C := 64) (V c main_arg0) (V c main_arg3) (V c main_v31) :=
  (dat0 V c).arrAt_eq_of_cover 3 _ (fun t _ => flushed V c t) cover

end Cert.KernelIdeal.Encoder

end
-- ==== Proof.ProductOne.lean ====
/-
  THE FIRST LAYER'S WEIGHT PRODUCT (the second pipelined call).

  The call walks the 100000 rows of the encoded features in ten blocks of 10000. At block t it reads those rows, the
  whole 64 × 64 weight and a one-row bias, and writes back the same rows of the result: entry (p, q) of the block is
  Σ_k x (p, k) · w (k, q) + b (0, q). The formula mentions only row p of the features, so what block t writes back is
  rows 10000·t … of the whole-array function 'affine' of the three arrays as the call finds them; the ten blocks tile
  the result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.ProductOne

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'affine' of the loaded blocks. -/
theorem pay_eq (x0 : Vec Ideal S10000x64 .f32) (x1 : Vec Ideal S64x64 .f32) (x2 : Vec Ideal S1x64 .f32) :
    k1_pay1 x0 x1 x2 = affine (N := 10000) (K := 64) (C := 64) x0 x1 x2 :=
  device_affine_cast dot_S10000x64_S64x64_S10000x64_1_0_0_1_n_n Facts₀.dot_S10000x64_S64x64_S10000x64_1_0_0_1_n_n_wf rfl x0 x1 x2 _ _ _ _

/-- One entry of a block: if each block cut by rows holds rows 'r p' of its array and the other blocks are whole
    arrays, the stored entry (p, q) is entry (r p, q) of 'affine' of the arrays. -/
theorem point_eq (A0 : FVec Ideal S100000x64 .f32) (A1 : FVec Ideal S64x64 .f32) (A2 : FVec Ideal S1x64 .f32)
    (x0 : Vec Ideal S10000x64 .f32) (x1 : Vec Ideal S64x64 .f32) (x2 : Vec Ideal S1x64 .f32)
    (r : Fin 10000 → Fin 100000)
    (h0 : ∀ (p : Fin 10000) (k : Fin 64), x0 (ix2 p k) = A0 (ix2 (r p) k))
    (h1 : x1 = A1)
    (h2 : x2 = A2)
    (p : Fin 10000) (q : Fin 64) :
    k1_pay1 x0 x1 x2 (ix2 p q) = affine (N := 100000) (K := 64) (C := 64) A0 A1 A2 (ix2 (r p) q) := by
  subst h1 h2
  rw [pay_eq]
  exact affine_rows A0 x1 x2 x0 r h0 p q

/-- The printed index maps over the grid points: the blocks cut by rows move with the point, the others stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row of the whole array at which row p of block t sits. -/
def row (t : Fin cfg1.N) (p : Fin 10000) : Fin 100000 :=
  ⟨t.val * 10000 + p.val, by have ht : t.val < 10 := t.isLt; have hp := p.isLt; omega⟩

/-- WHAT POINT t WRITES BACK is block t of 'affine' of the arrays as the call finds them. -/
theorem flushed (c : Dev nD) (t : Fin cfg1.N) :
    (dat1 V c).flushed 3 t = ((cfg1.win 3).blk t).view.read (Elt Ideal)
      (affine (N := 100000) (K := 64) (C := 64) (V c main_v32) (V c main_arg5) (V c main_v34)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e00, e01, e10, e11, e20, e21, eo0, eo1⟩ := idx_facts t
  funext j
  obtain ⟨p, q, rfl⟩ : ∃ (p : Fin 10000) (q : Fin 64), j = ix2 p q := ⟨j 0, j 1, eq_ix2 j⟩
  have hemb : ((cfg1.win 3).blk t).view.emb (ix2 p q) = ix2 (row t p) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (iblk1 V c 0 t) (iblk1 V c 1 t) (iblk1 V c 2 t) (ix2 p q)
    = affine (N := 100000) (K := 64) (C := 64) (V c main_v32) (V c main_arg5) (V c main_v34) (((cfg1.win 3).blk t).view.emb (ix2 p q))
  rw [hemb]
  refine point_eq (V c main_v32) (V c main_arg5) (V c main_v34) _ _ _ (row t) (fun p' k => ?_) ?_ ?_ p q
  · show V c main_v32 (((cfg1.win 0).blk t).view.emb (ix2 p' k)) = V c main_v32 (ix2 (row t p') k)
    refine congrArg (V c main_v32) ?_
    funext a; apply Fin.ext
    match a with
    | ⟨0, _⟩ => show win1_0.index t (0 : Fin 2) * 10000 + 1 * p'.val = t.val * 10000 + p'.val; omega
    | ⟨1, _⟩ => show win1_0.index t (1 : Fin 2) * 64 + 1 * k.val = k.val; omega
  · funext y
    show V c main_arg5 (((cfg1.win 1).blk t).view.emb y) = V c main_arg5 y
    refine congrArg (V c main_arg5) ?_
    funext a; apply Fin.ext
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v34 (((cfg1.win 2).blk t).view.emb y) = V c main_v34 y
    refine congrArg (V c main_v34) ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega

/-- An index of the result array is in point t's block iff each coordinate is in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v35).slice (win1_3.rect t)).set ↔ _
  rw [View.set_slice_whole, Rect.mem_set_unit]
  exact Iff.rfl

/-- Every entry of the result lies in some point's block: row n in block n / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by show (i 0).val / 10000 < 10; omega⟩
  obtain ⟨e00, e01, e10, e11, e20, e21, eo0, eo1⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE RESULT ARRAY after the call: 'affine' of the arrays as the call finds them. -/
theorem final (c : Dev nD) :
    (dat1 V c).arrAt 3 cfg1.N = affine (N := 100000) (K := 64) (C := 64) (V c main_v32) (V c main_arg5) (V c main_v34) :=
  (dat1 V c).arrAt_eq_of_cover 3 _ (fun t _ => flushed V c t) cover

end Cert.KernelIdeal.ProductOne

end
-- ==== Proof.CombineOne.lean ====
/-
  THE FIRST LAYER'S CLOSING STEP (the third pipelined call).

  The call walks the 100000 node rows in ten blocks of 10000. At block t it reads those rows of the collected messages
  and of the nodes' own scaled features, and a one-row bias, and writes back the same rows of the result: entry (p, q)
  of the block is max ((a (p, q) + s (p, q)) + b (0, q), 0). The formula mentions only row p of the two arrays, so
  what block t writes back is rows 10000·t … of the whole-array function 'addBiasRelu' of the three arrays as the
  call finds them; the ten blocks tile the result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.CombineOne

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'addBiasRelu' of the loaded blocks. -/
theorem pay_eq (x0 : Vec Ideal S10000x64 .f32) (x1 : Vec Ideal S10000x64 .f32) (x2 : Vec Ideal S1x64 .f32) :
    k2_pay1 x0 x1 x2 = addBiasRelu (N := 10000) (C := 64) x0 x1 x2 :=
  device_addBiasRelu x0 x1 x2 _ _ _

/-- One entry of a block: if each block cut by rows holds rows 'r p' of its array and the other blocks are whole
    arrays, the stored entry (p, q) is entry (r p, q) of 'addBiasRelu' of the arrays. -/
theorem point_eq (A0 : FVec Ideal S100000x64 .f32) (A1 : FVec Ideal S100000x64 .f32) (A2 : FVec Ideal S1x64 .f32)
    (x0 : Vec Ideal S10000x64 .f32) (x1 : Vec Ideal S10000x64 .f32) (x2 : Vec Ideal S1x64 .f32)
    (r : Fin 10000 → Fin 100000)
    (h0 : ∀ (p : Fin 10000) (k : Fin 64), x0 (ix2 p k) = A0 (ix2 (r p) k))
    (h1 : ∀ (p : Fin 10000) (k : Fin 64), x1 (ix2 p k) = A1 (ix2 (r p) k))
    (h2 : x2 = A2)
    (p : Fin 10000) (q : Fin 64) :
    k2_pay1 x0 x1 x2 (ix2 p q) = addBiasRelu (N := 100000) (C := 64) A0 A1 A2 (ix2 (r p) q) := by
  subst h2
  rw [pay_eq]
  exact addBiasRelu_rows A0 A1 x2 x0 x1 r h0 h1 p q

/-- The printed index maps over the grid points: the blocks cut by rows move with the point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row of the whole array at which row p of block t sits. -/
def row (t : Fin cfg2.N) (p : Fin 10000) : Fin 100000 :=
  ⟨t.val * 10000 + p.val, by have ht : t.val < 10 := t.isLt; have hp := p.isLt; omega⟩

/-- WHAT POINT t WRITES BACK is block t of 'addBiasRelu' of the arrays as the call finds them. -/
theorem flushed (c : Dev nD) (t : Fin cfg2.N) :
    (dat2 V c).flushed 3 t = ((cfg2.win 3).blk t).view.read (Elt Ideal)
      (addBiasRelu (N := 100000) (C := 64) (V c main_v48) (V c main_v51) (V c main_v52)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz]
  obtain ⟨e00, e01, e10, e11, e20, e21, eo0, eo1⟩ := idx_facts t
  funext j
  obtain ⟨p, q, rfl⟩ : ∃ (p : Fin 10000) (q : Fin 64), j = ix2 p q := ⟨j 0, j 1, eq_ix2 j⟩
  have hemb : ((cfg2.win 3).blk t).view.emb (ix2 p q) = ix2 (row t p) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show k2_pay1 (iblk2 V c 0 t) (iblk2 V c 1 t) (iblk2 V c 2 t) (ix2 p q)
    = addBiasRelu (N := 100000) (C := 64) (V c main_v48) (V c main_v51) (V c main_v52) (((cfg2.win 3).blk t).view.emb (ix2 p q))
  rw [hemb]
  refine point_eq (V c main_v48) (V c main_v51) (V c main_v52) _ _ _ (row t) (fun p' k => ?_) (fun p' k => ?_) ?_ p q
  · show V c main_v48 (((cfg2.win 0).blk t).view.emb (ix2 p' k)) = V c main_v48 (ix2 (row t p') k)
    refine congrArg (V c main_v48) ?_
    funext a; apply Fin.ext
    match a with
    | ⟨0, _⟩ => show win2_0.index t (0 : Fin 2) * 10000 + 1 * p'.val = t.val * 10000 + p'.val; omega
    | ⟨1, _⟩ => show win2_0.index t (1 : Fin 2) * 64 + 1 * k.val = k.val; omega
  · show V c main_v51 (((cfg2.win 1).blk t).view.emb (ix2 p' k)) = V c main_v51 (ix2 (row t p') k)
    refine congrArg (V c main_v51) ?_
    funext a; apply Fin.ext
    match a with
    | ⟨0, _⟩ => show win2_1.index t (0 : Fin 2) * 10000 + 1 * p'.val = t.val * 10000 + p'.val; omega
    | ⟨1, _⟩ => show win2_1.index t (1 : Fin 2) * 64 + 1 * k.val = k.val; omega
  · funext y
    show V c main_v52 (((cfg2.win 2).blk t).view.emb y) = V c main_v52 y
    refine congrArg (V c main_v52) ?_
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega

/-- An index of the result array is in point t's block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v53).slice (win2_3.rect t)).set ↔ _
  rw [View.set_slice_whole, Rect.mem_set_unit]
  exact Iff.rfl

/-- Every entry of the result lies in some point's block: row n in block n / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, by show (i 0).val / 10000 < 10; omega⟩
  obtain ⟨e00, e01, e10, e11, e20, e21, eo0, eo1⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE RESULT ARRAY after the call: 'addBiasRelu' of the arrays as the call finds them. -/
theorem final (c : Dev nD) :
    (dat2 V c).arrAt 3 cfg2.N = addBiasRelu (N := 100000) (C := 64) (V c main_v48) (V c main_v51) (V c main_v52) :=
  (dat2 V c).arrAt_eq_of_cover 3 _ (fun t _ => flushed V c t) cover

end Cert.KernelIdeal.CombineOne

end
-- ==== Proof.ProductTwo.lean ====
/-
  THE SECOND LAYER'S WEIGHT PRODUCT (the fourth pipelined call).

  The call walks the 100000 rows of the first layer's output in ten blocks of 10000. At block t it reads those rows,
  the whole 64 × 32 weight and a one-row bias, and writes back the same rows of the result: entry (p, q) of the block
  is Σ_k x (p, k) · w (k, q) + b (0, q). The formula mentions only row p of the features, so what block t writes back
  is rows 10000·t … of the whole-array function 'affine' of the three arrays as the call finds them; the ten blocks
  tile the result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.ProductTwo

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'affine' of the loaded blocks. -/
theorem pay_eq (x0 : Vec Ideal S10000x64 .f32) (x1 : Vec Ideal S64x32 .f32) (x2 : Vec Ideal S1x32 .f32) :
    k3_pay1 x0 x1 x2 = affine (N := 10000) (K := 64) (C := 32) x0 x1 x2 :=
  device_affine_cast dot_S10000x64_S64x32_S10000x32_1_0_0_1_n_n Facts₀.dot_S10000x64_S64x32_S10000x32_1_0_0_1_n_n_wf rfl x0 x1 x2 _ _ _ _

/-- One entry of a block: if each block cut by rows holds rows 'r p' of its array and the other blocks are whole
    arrays, the stored entry (p, q) is entry (r p, q) of 'affine' of the arrays. -/
theorem point_eq (A0 : FVec Ideal S100000x64 .f32) (A1 : FVec Ideal S64x32 .f32) (A2 : FVec Ideal S1x32 .f32)
    (x0 : Vec Ideal S10000x64 .f32) (x1 : Vec Ideal S64x32 .f32) (x2 : Vec Ideal S1x32 .f32)
    (r : Fin 10000 → Fin 100000)
    (h0 : ∀ (p : Fin 10000) (k : Fin 64), x0 (ix2 p k) = A0 (ix2 (r p) k))
    (h1 : x1 = A1)
    (h2 : x2 = A2)
    (p : Fin 10000) (q : Fin 32) :
    k3_pay1 x0 x1 x2 (ix2 p q) = affine (N := 100000) (K := 64) (C := 32) A0 A1 A2 (ix2 (r p) q) := by
  subst h1 h2
  rw [pay_eq]
  exact affine_rows A0 x1 x2 x0 r h0 p q

/-- The printed index maps over the grid points: the blocks cut by rows move with the point, the others stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row of the whole array at which row p of block t sits. -/
def row (t : Fin cfg3.N) (p : Fin 10000) : Fin 100000 :=
  ⟨t.val * 10000 + p.val, by have ht : t.val < 10 := t.isLt; have hp := p.isLt; omega⟩

/-- WHAT POINT t WRITES BACK is block t of 'affine' of the arrays as the call finds them. -/
theorem flushed (c : Dev nD) (t : Fin cfg3.N) :
    (dat3 V c).flushed 3 t = ((cfg3.win 3).blk t).view.read (Elt Ideal)
      (affine (N := 100000) (K := 64) (C := 32) (V c main_v53) (V c main_arg7) (V c main_v55)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x32) hz, View.ld_unit_zero (S := S1x32) hz]
  obtain ⟨e00, e01, e10, e11, e20, e21, eo0, eo1⟩ := idx_facts t
  funext j
  obtain ⟨p, q, rfl⟩ : ∃ (p : Fin 10000) (q : Fin 32), j = ix2 p q := ⟨j 0, j 1, eq_ix2 j⟩
  have hemb : ((cfg3.win 3).blk t).view.emb (ix2 p q) = ix2 (row t p) q := by
    funext a; apply Fin.ext
    match a with
    | ⟨0, _⟩ => show win3_3.index t (0 : Fin 2) * 10000 + 1 * p.val = t.val * 10000 + p.val; omega
    | ⟨1, _⟩ => show win3_3.index t (1 : Fin 2) * 32 + 1 * q.val = q.val; omega
  show k3_pay1 (iblk3 V c 0 t) (iblk3 V c 1 t) (iblk3 V c 2 t) (ix2 p q)
    = affine (N := 100000) (K := 64) (C := 32) (V c main_v53) (V c main_arg7) (V c main_v55) (((cfg3.win 3).blk t).view.emb (ix2 p q))
  rw [hemb]
  refine point_eq (V c main_v53) (V c main_arg7) (V c main_v55) _ _ _ (row t) (fun p' k => ?_) ?_ ?_ p q
  · show V c main_v53 (((cfg3.win 0).blk t).view.emb (ix2 p' k)) = V c main_v53 (ix2 (row t p') k)
    refine congrArg (V c main_v53) ?_
    funext a; apply Fin.ext
    match a with
    | ⟨0, _⟩ => show win3_0.index t (0 : Fin 2) * 10000 + 1 * p'.val = t.val * 10000 + p'.val; omega
    | ⟨1, _⟩ => show win3_0.index t (1 : Fin 2) * 64 + 1 * k.val = k.val; omega
  · funext y
    show V c main_arg7 (((cfg3.win 1).blk t).view.emb y) = V c main_arg7 y
    refine congrArg (V c main_arg7) ?_
    funext a; apply Fin.ext
    match a with
    | ⟨0, _⟩ => show win3_1.index t (0 : Fin 2) * 64 + 1 * (y 0).val = (y 0).val; omega
    | ⟨1, _⟩ => show win3_1.index t (1 : Fin 2) * 32 + 1 * (y 1).val = (y 1).val; omega
  · funext y
    show V c main_v55 (((cfg3.win 2).blk t).view.emb y) = V c main_v55 y
    refine congrArg (V c main_v55) ?_
    funext a; apply Fin.ext
    match a with
    | ⟨0, _⟩ => show win3_2.index t (0 : Fin 2) * 1 + 1 * (y 0).val = (y 0).val; omega
    | ⟨1, _⟩ => show win3_2.index t (1 : Fin 2) * 32 + 1 * (y 1).val = (y 1).val; omega

/-- An index of the result array is in point t's block iff each coordinate is in the block's range. -/
theorem mem_blk (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v56).slice (win3_3.rect t)).set ↔ _
  rw [View.set_slice_whole, Rect.mem_set_unit]
  exact Iff.rfl

/-- Every entry of the result lies in some point's block: row n in block n / 10000. -/
theorem cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  let t : Fin cfg3.N := ⟨(i 0).val / 10000, by show (i 0).val / 10000 < 10; omega⟩
  obtain ⟨e00, e01, e10, e11, e20, e21, eo0, eo1⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- THE RESULT ARRAY after the call: 'affine' of the arrays as the call finds them. -/
theorem final (c : Dev nD) :
    (dat3 V c).arrAt 3 cfg3.N = affine (N := 100000) (K := 64) (C := 32) (V c main_v53) (V c main_arg7) (V c main_v55) :=
  (dat3 V c).arrAt_eq_of_cover 3 _ (fun t _ => flushed V c t) cover

end Cert.KernelIdeal.ProductTwo

end
-- ==== Proof.CombineTwo.lean ====
/-
  THE SECOND LAYER'S CLOSING STEP (the fifth pipelined call).

  The call walks the 100000 node rows in ten blocks of 10000. At block t it reads those rows of the collected messages
  and of the nodes' own scaled features, and a one-row bias, and writes back the same rows of the result: entry (p, q)
  of the block is (a (p, q) + s (p, q)) + b (0, q). The formula mentions only row p of the two arrays, so what block t
  writes back is rows 10000·t … of the whole-array function 'addBias' of the three arrays as the call finds them; the
  ten blocks tile the result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.CombineTwo

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'addBias' of the loaded blocks. -/
theorem pay_eq (x0 : Vec Ideal S10000x32 .f32) (x1 : Vec Ideal S10000x32 .f32) (x2 : Vec Ideal S1x32 .f32) :
    k4_pay1 x0 x1 x2 = addBias (N := 10000) (C := 32) x0 x1 x2 :=
  device_addBias x0 x1 x2 _ _ _

/-- One entry of a block: if each block cut by rows holds rows 'r p' of its array and the other blocks are whole
    arrays, the stored entry (p, q) is entry (r p, q) of 'addBias' of the arrays. -/
theorem point_eq (A0 : FVec Ideal S100000x32 .f32) (A1 : FVec Ideal S100000x32 .f32) (A2 : FVec Ideal S1x32 .f32)
    (x0 : Vec Ideal S10000x32 .f32) (x1 : Vec Ideal S10000x32 .f32) (x2 : Vec Ideal S1x32 .f32)
    (r : Fin 10000 → Fin 100000)
    (h0 : ∀ (p : Fin 10000) (k : Fin 32), x0 (ix2 p k) = A0 (ix2 (r p) k))
    (h1 : ∀ (p : Fin 10000) (k : Fin 32), x1 (ix2 p k) = A1 (ix2 (r p) k))
    (h2 : x2 = A2)
    (p : Fin 10000) (q : Fin 32) :
    k4_pay1 x0 x1 x2 (ix2 p q) = addBias (N := 100000) (C := 32) A0 A1 A2 (ix2 (r p) q) := by
  subst h2
  rw [pay_eq]
  exact addBias_rows A0 A1 x2 x0 x1 r h0 h1 p q

/-- The printed index maps over the grid points: the blocks cut by rows move with the point, the others stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The row of the whole array at which row p of block t sits. -/
def row (t : Fin cfg4.N) (p : Fin 10000) : Fin 100000 :=
  ⟨t.val * 10000 + p.val, by have ht : t.val < 10 := t.isLt; have hp := p.isLt; omega⟩

/-- WHAT POINT t WRITES BACK is block t of 'addBias' of the arrays as the call finds them. -/
theorem flushed (c : Dev nD) (t : Fin cfg4.N) :
    (dat4 V c).flushed 3 t = ((cfg4.win 3).blk t).view.read (Elt Ideal)
      (addBias (N := 100000) (C := 32) (V c main_v69) (V c main_v72) (V c main_v73)) := by
  show (cfg4.win 3).cut (grid4.coords t) ((dat4 V c).after 3 t) = _
  rw [after4_3]
  unfold out4_3
  rw [View.canon_unit_zero hz]
  simp only [View.ld_unit_zero (S := S10000x32) hz, View.ld_unit_zero (S := S1x32) hz]
  obtain ⟨e00, e01, e10, e11, e20, e21, eo0, eo1⟩ := idx_facts t
  funext j
  obtain ⟨p, q, rfl⟩ : ∃ (p : Fin 10000) (q : Fin 32), j = ix2 p q := ⟨j 0, j 1, eq_ix2 j⟩
  have hemb : ((cfg4.win 3).blk t).view.emb (ix2 p q) = ix2 (row t p) q := by
    funext a; apply Fin.ext
    match a with
    | ⟨0, _⟩ => show win4_3.index t (0 : Fin 2) * 10000 + 1 * p.val = t.val * 10000 + p.val; omega
    | ⟨1, _⟩ => show win4_3.index t (1 : Fin 2) * 32 + 1 * q.val = q.val; omega
  show k4_pay1 (iblk4 V c 0 t) (iblk4 V c 1 t) (iblk4 V c 2 t) (ix2 p q)
    = addBias (N := 100000) (C := 32) (V c main_v69) (V c main_v72) (V c main_v73) (((cfg4.win 3).blk t).view.emb (ix2 p q))
  rw [hemb]
  refine point_eq (V c main_v69) (V c main_v72) (V c main_v73) _ _ _ (row t) (fun p' k => ?_) (fun p' k => ?_) ?_ p q
  · show V c main_v69 (((cfg4.win 0).blk t).view.emb (ix2 p' k)) = V c main_v69 (ix2 (row t p') k)
    refine congrArg (V c main_v69) ?_
    funext a; apply Fin.ext
    match a with
    | ⟨0, _⟩ => show win4_0.index t (0 : Fin 2) * 10000 + 1 * p'.val = t.val * 10000 + p'.val; omega
    | ⟨1, _⟩ => show win4_0.index t (1 : Fin 2) * 32 + 1 * k.val = k.val; omega
  · show V c main_v72 (((cfg4.win 1).blk t).view.emb (ix2 p' k)) = V c main_v72 (ix2 (row t p') k)
    refine congrArg (V c main_v72) ?_
    funext a; apply Fin.ext
    match a with
    | ⟨0, _⟩ => show win4_1.index t (0 : Fin 2) * 10000 + 1 * p'.val = t.val * 10000 + p'.val; omega
    | ⟨1, _⟩ => show win4_1.index t (1 : Fin 2) * 32 + 1 * k.val = k.val; omega
  · funext y
    show V c main_v73 (((cfg4.win 2).blk t).view.emb y) = V c main_v73 y
    refine congrArg (V c main_v73) ?_
    funext a; apply Fin.ext
    match a with
    | ⟨0, _⟩ => show win4_2.index t (0 : Fin 2) * 1 + 1 * (y 0).val = (y 0).val; omega
    | ⟨1, _⟩ => show win4_2.index t (1 : Fin 2) * 32 + 1 * (y 1).val = (y 1).val; omega

/-- An index of the result array is in point t's block iff each coordinate is in the block's range. -/
theorem mem_blk (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v74).slice (win4_3.rect t)).set ↔ _
  rw [View.set_slice_whole, Rect.mem_set_unit]
  exact Iff.rfl

/-- Every entry of the result lies in some point's block: row n in block n / 10000. -/
theorem cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  let t : Fin cfg4.N := ⟨(i 0).val / 10000, by show (i 0).val / 10000 < 10; omega⟩
  obtain ⟨e00, e01, e10, e11, e20, e21, eo0, eo1⟩ := idx_facts t
  have ht : t.val = (i 0).val / 10000 := rfl
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 32 ≤ (i 1).val ∧ (i 1).val < win4_3.index t (1 : Fin 2) * 32 + 32; omega

/-- THE RESULT ARRAY after the call: 'addBias' of the arrays as the call finds them. -/
theorem final (c : Dev nD) :
    (dat4 V c).arrAt 3 cfg4.N = addBias (N := 100000) (C := 32) (V c main_v69) (V c main_v72) (V c main_v73) :=
  (dat4 V c).arrAt_eq_of_cover 3 _ (fun t _ => flushed V c t) cover

end Cert.KernelIdeal.CombineTwo

end
-- ==== Proof.Scorer.lean ====
/-
  THE EDGE SCORER (the sixth pipelined call).

  The call walks the 500000 queried node pairs in fifty blocks of 10000. At block t it reads those rows of the summed
  pair features, the two weights and the two one-row biases whole, and writes back the same rows of the one-column
  result: entry (p, 0) of the block is the logistic function of Σ_k max (Σ_l e (p, l) · w1 (l, k) + b1 (0, k), 0) ·
  w2 (k, 0) + b2 (0, 0). The formula mentions only row p of the pair features, so what block t writes back is rows
  10000·t … of the whole-array function 'score' of the five arrays as the call finds them; the fifty blocks tile the
  result, so the result array is that function.
-/
import proofs.«147929_j72112500900411_2_alg».proof.Proof.Gen.KernelIdeal.Frame
import proofs.«147929_j72112500900411_2_alg».proof.Proof.LibDenseStages
import Idealize.ShloMosaic.Lib.Pipeline.Value
import Idealize.ShloMosaic.Lib.ValueIdx

set_option maxRecDepth 16384

noncomputable section

namespace Cert.KernelIdeal.Scorer

open Cert.KernelIdeal Cert.KernelIdeal.Gen Cert.DenseStages
open Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is 'score' of the loaded blocks. -/
theorem pay_eq (x0 : Vec Ideal S10000x32 .f32) (x1 : Vec Ideal S32x16 .f32) (x2 : Vec Ideal S1x16 .f32) (x3 : Vec Ideal S16x1 .f32) (x4 : Vec Ideal S1x1 .f32) :
    k5_pay1 x0 x1 x2 x3 x4 = score (N := 10000) (K := 32) (H := 16) x0 x1 x2 x3 x4 :=
  device_score dot_S10000x32_S32x16_S10000x16_1_0_0_1_n_n Facts₀.dot_S10000x32_S32x16_S10000x16_1_0_0_1_n_n_wf rfl
    dot_S10000x16_S16x1_S10000x1_1_0_0_1_n_n Facts₀.dot_S10000x16_S16x1_S10000x1_1_0_0_1_n_n_wf rfl x0 x1 x2 x3 x4 _ _ _ _ _ _

/-- One entry of a block: if each block cut by rows holds rows 'r p' of its array and the other blocks are whole
    arrays, the stored entry (p, q) is entry (r p, q) of 'score' of the arrays. -/
theorem point_eq (A0 : FVec Ideal S500000x32 .f32) (A1 : FVec Ideal S32x16 .f32) (A2 : FVec Ideal S1x16 .f32) (A3 : FVec Ideal S16x1 .f32) (A4 : FVec Ideal S1x1 .f32)
    (x0 : Vec Ideal S10000x32 .f32) (x1 : Vec Ideal S32x16 .f32) (x2 : Vec Ideal S1x16 .f32) (x3 : Vec Ideal S16x1 .f32) (x4 : Vec Ideal S1x1 .f32)
    (r : Fin 10000 → Fin 500000)
    (h0 : ∀ (p : Fin 10000) (k : Fin 32), x0 (ix2 p k) = A0 (ix2 (r p) k))
    (h1 : x1 = A1)
    (h2 : x2 = A2)
    (h3 : x3 = A3)
    (h4 : x4 = A4)
    (p : Fin 10000) (q : Fin 1) :
    k5_pay1 x0 x1 x2 x3 x4 (ix2 p q) = score (N := 500000) (K := 32) (H := 16) A0 A1 A2 A3 A4 (ix2 (r p) q) := by
  subst h1 h2 h3 h4
  rw [pay_eq]
  exact score_rows A0 x1 x2 x3 x4 x0 r h0 p q

/-- The printed index maps over the grid points: the blocks cut by rows move with the point, the others stay. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The row of the whole array at which row p of block t sits. -/
def row (t : Fin cfg5.N) (p : Fin 10000) : Fin 500000 :=
  ⟨t.val * 10000 + p.val, by have ht : t.val < 50 := t.isLt; have hp := p.isLt; omega⟩

set_option maxHeartbeats 1000000 in  -- six windows' worth of the same index arithmetic in one statement
/-- WHAT POINT t WRITES BACK is block t of 'score' of the arrays as the call finds them. -/
theorem flushed (c : Dev nD) (t : Fin cfg5.N) :
    (dat5 V c).flushed 5 t = ((cfg5.win 5).blk t).view.read (Elt Ideal)
      (score (N := 500000) (K := 32) (H := 16) (V c main_v89) (V c main_arg9) (V c main_v90) (V c main_arg11) (V c main_v91)) := by
  show (cfg5.win 5).cut (grid5.coords t) ((dat5 V c).after 5 t) = _
  rw [after5_5]
  unfold out5_5
  rw [View.canon_unit_zero hz]
  simp only [View.ld_unit_zero (S := S10000x32) hz, View.ld_unit_zero (S := S32x16) hz, View.ld_unit_zero (S := S1x16) hz, View.ld_unit_zero (S := S16x1) hz, View.ld_unit_zero (S := S1x1) hz]
  obtain ⟨e00, e01, e10, e11, e20, e21, e30, e31, e40, e41, eo0, eo1⟩ := idx_facts t
  funext j
  obtain ⟨p, q, rfl⟩ : ∃ (p : Fin 10000) (q : Fin 1), j = ix2 p q := ⟨j 0, j 1, eq_ix2 j⟩
  have hemb : ((cfg5.win 5).blk t).view.emb (ix2 p q) = ix2 (row t p) q := by
    funext a; apply Fin.ext
    match a with
    | ⟨0, _⟩ => show win5_5.index t (0 : Fin 2) * 10000 + 1 * p.val = t.val * 10000 + p.val; omega
    | ⟨1, _⟩ => show win5_5.index t (1 : Fin 2) * 1 + 1 * q.val = q.val; omega
  show k5_pay1 (iblk5 V c 0 t) (iblk5 V c 1 t) (iblk5 V c 2 t) (iblk5 V c 3 t) (iblk5 V c 4 t) (ix2 p q)
    = score (N := 500000) (K := 32) (H := 16) (V c main_v89) (V c main_arg9) (V c main_v90) (V c main_arg11) (V c main_v91) (((cfg5.win 5).blk t).view.emb (ix2 p q))
  rw [hemb]
  refine point_eq (V c main_v89) (V c main_arg9) (V c main_v90) (V c main_arg11) (V c main_v91) _ _ _ _ _ (row t) (fun p' k => ?_) ?_ ?_ ?_ ?_ p q
  · show V c main_v89 (((cfg5.win 0).blk t).view.emb (ix2 p' k)) = V c main_v89 (ix2 (row t p') k)
    refine congrArg (V c main_v89) ?_
    funext a; apply Fin.ext
    match a with
    | ⟨0, _⟩ => show win5_0.index t (0 : Fin 2) * 10000 + 1 * p'.val = t.val * 10000 + p'.val; omega
    | ⟨1, _⟩ => show win5_0.index t (1 : Fin 2) * 32 + 1 * k.val = k.val; omega
  · funext y
    show V c main_arg9 (((cfg5.win 1).blk t).view.emb y) = V c main_arg9 y
    refine congrArg (V c main_arg9) ?_
    funext a; apply Fin.ext
    match a with
    | ⟨0, _⟩ => show win5_1.index t (0 : Fin 2) * 32 + 1 * (y 0).val = (y 0).val; omega
    | ⟨1, _⟩ => show win5_1.index t (1 : Fin 2) * 16 + 1 * (y 1).val = (y 1).val; omega
  · funext y
    show V c main_v90 (((cfg5.win 2).blk t).view.emb y) = V c main_v90 y
    refine congrArg (V c main_v90) ?_
    funext a; apply Fin.ext
    match a with
    | ⟨0, _⟩ => show win5_2.index t (0 : Fin 2) * 1 + 1 * (y 0).val = (y 0).val; omega
    | ⟨1, _⟩ => show win5_2.index t (1 : Fin 2) * 16 + 1 * (y 1).val = (y 1).val; omega
  · funext y
    show V c main_arg11 (((cfg5.win 3).blk t).view.emb y) = V c main_arg11 y
    refine congrArg (V c main_arg11) ?_
    funext a; apply Fin.ext
    match a with
    | ⟨0, _⟩ => show win5_3.index t (0 : Fin 2) * 16 + 1 * (y 0).val = (y 0).val; omega
    | ⟨1, _⟩ => show win5_3.index t (1 : Fin 2) * 1 + 1 * (y 1).val = (y 1).val; omega
  · funext y
    show V c main_v91 (((cfg5.win 4).blk t).view.emb y) = V c main_v91 y
    refine congrArg (V c main_v91) ?_
    funext a; apply Fin.ext
    match a with
    | ⟨0, _⟩ => show win5_4.index t (0 : Fin 2) * 1 + 1 * (y 0).val = (y 0).val; omega
    | ⟨1, _⟩ => show win5_4.index t (1 : Fin 2) * 1 + 1 * (y 1).val = (y 1).val; omega

/-- An index of the result array is in point t's block iff each coordinate is in the block's range. -/
theorem mem_blk (t : Fin cfg5.N) (i : S500000x1.Idx) :
    i ∈ ((cfg5.win 5).blk t).view.set ↔ ∀ a : Fin 2, win5_5.index t a * S10000x1.size a ≤ (i a).val ∧ (i a).val < win5_5.index t a * S10000x1.size a + S10000x1.size a := by
  show i ∈ ((View.whole main_v92).slice (win5_5.rect t)).set ↔ _
  rw [View.set_slice_whole, Rect.mem_set_unit]
  exact Iff.rfl

/-- Every entry of the result lies in some point's block: row n in block n / 10000. -/
theorem cover (i : S500000x1.Idx) :
    ∃ t : Fin cfg5.N, (cfg5.win 5).flush t = true ∧ i ∈ ((cfg5.win 5).blk t).view.set := by
  have hi0 : (i 0).val < 500000 := (i 0).isLt
  have hi1 : (i 1).val < 1 := (i 1).isLt
  let t : Fin cfg5.N := ⟨(i 0).val / 10000, by show (i 0).val / 10000 < 50; omega⟩
  obtain ⟨e00, e01, e10, e11, e20, e21, e30, e31, e40, e41, eo0, eo1⟩ := idx_facts t
  have ht : t.val = (i 0).val / 10000 := rfl
  refine ⟨t, flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 1 ≤ (i 1).val ∧ (i 1).val < win5_5.index t (1 : Fin 2) * 1 + 1; omega

/-- THE RESULT ARRAY after the call: 'score' of the arrays as the call finds them. -/
theorem final (c : Dev nD) :
    (dat5 V c).arrAt 5 cfg5.N = score (N := 500000) (K := 32) (H := 16) (V c main_v89) (V c main_arg9) (V c main_v90) (V c main_arg11) (V c main_v91) :=
  (dat5 V c).arrAt_eq_of_cover 5 _ (fun t _ => flushed V c t) cover

end Cert.KernelIdeal.Scorer

end
-- ==== Proof.RefStages.lean ====
/-
  THE REFERENCE'S DENSE STEPS ARE THE WHOLE-ARRAY STAGES.

  The reference computes each dense step on whole arrays with host operations: a matrix product, a bias vector
  broadcast first to one row and then down all rows, a maximum against a broadcast zero, and for the final score the
  quotient 1 / (1 + e^(-y)). Entry by entry these are the stage functions 'affineRelu', 'affine' (with a bias of zeros
  where the reference adds none), 'addBiasRelu', 'addBias' and 'score', the bias vector recast as a one-row array.
  The steps in between — degrees, normalisation, gathering along edges, scattering onto nodes — are left as the
  reference names them: nothing here opens them.
-/
import proofs.«147929_j72112500900411_2_alg».proof.Proof.Gen.ReferenceIdeal.Read
import proofs.«147929_j72112500900411_2_alg».proof.Proof.LibDenseStages

noncomputable section

namespace Cert.ReferenceIdeal.Stages

open Cert.ReferenceIdeal Cert.ReferenceIdeal.Read Cert.DenseStages
open Cert.ReferenceIdeal.Facts₀ Cert.ReferenceIdeal.Facts
open Idealize.ShloMosaic

variable (x0 : (⟨S100000x32, .f32⟩ : BufTy).Contents (Elt Ideal)) (x1 : (⟨S2x3200000, .i32⟩ : BufTy).Contents (Elt Ideal)) (x2 : (⟨S2x500000, .i32⟩ : BufTy).Contents (Elt Ideal))
  (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal))
  (x11 : (⟨S16x1, .f32⟩ : BufTy).Contents (Elt Ideal)) (x12 : (⟨S1, .f32⟩ : BufTy).Contents (Elt Ideal))

/-- The encoded node features. -/
theorem encoded (hc : S64.ShapeCasts S1x64) :
    val_main_v8 (F := Ideal) x0 x3 x4 = affineRelu (N := 100000) (K := 32) (C := 64) x0 x3 (shapeCast S1x64 x4 hc) := by
  unfold val_main_v8 val_main_v7 val_main_v6 val_main_v5 val_main_v4 val_main_call0_v0 val_main_call0_cst
  exact host_affineRelu dot_S100000x32_S32x64_S100000x64_1_0_0_1_n_n Facts₀.dot_S100000x32_S32x64_S100000x64_1_0_0_1_n_n_wf rfl
    x0 x3 x4 _ _ _ hc

/-- The first layer's weight product: a product alone is the affine step with a bias of zeros. -/
theorem productOne (hz : S_.BroadcastsInDim S64 (![] : Fin 0 → Fin S64.rank)) (hc : S64.ShapeCasts S1x64) :
    val_main_v9 (F := Ideal) x0 x3 x4 x5
      = affine (N := 100000) (K := 64) (C := 64) (val_main_v8 (F := Ideal) x0 x3 x4) x5
          (shapeCast S1x64 (broadcastInDim S64 ![] hz (constant (F := Ideal) S_ .f32 0x00000000#32)) hc) := by
  unfold val_main_v9
  exact host_product dot_S100000x64_S64x64_S100000x64_1_0_0_1_n_n Facts₀.dot_S100000x64_S64x64_S100000x64_1_0_0_1_n_n_wf rfl
    _ x5 hz hc

/-- The first layer's output. -/
theorem layerOne (hc : S64.ShapeCasts S1x64) :
    val_main_v53 (F := Ideal) x0 x1 x3 x4 x5 x6
      = addBiasRelu (N := 100000) (C := 64) (val_main_v44 (F := Ideal) x0 x1 x3 x4 x5) (val_main_v48 (F := Ideal) x0 x1 x3 x4 x5)
          (shapeCast S1x64 x6 hc) := by
  unfold val_main_v53 val_main_v52 val_main_v51 val_main_v50 val_main_v49 val_main_call1_v0 val_main_call1_cst
  exact host_addBiasRelu _ _ x6 _ _ _ hc

/-- The second layer's weight product. -/
theorem productTwo (hz : S_.BroadcastsInDim S32 (![] : Fin 0 → Fin S32.rank)) (hc : S32.ShapeCasts S1x32) :
    val_main_v54 (F := Ideal) x0 x1 x3 x4 x5 x6 x7
      = affine (N := 100000) (K := 64) (C := 32) (val_main_v53 (F := Ideal) x0 x1 x3 x4 x5 x6) x7
          (shapeCast S1x32 (broadcastInDim S32 ![] hz (constant (F := Ideal) S_ .f32 0x00000000#32)) hc) := by
  unfold val_main_v54
  exact host_product dot_S100000x64_S64x32_S100000x32_1_0_0_1_n_n Facts₀.dot_S100000x64_S64x32_S100000x32_1_0_0_1_n_n_wf rfl
    _ x7 hz hc

/-- The second layer's output. -/
theorem layerTwo (hc : S32.ShapeCasts S1x32) :
    val_main_v97 (F := Ideal) x0 x1 x3 x4 x5 x6 x7 x8
      = addBias (N := 100000) (C := 32) (val_main_v89 (F := Ideal) x0 x1 x3 x4 x5 x6 x7) (val_main_v93 (F := Ideal) x0 x1 x3 x4 x5 x6 x7)
          (shapeCast S1x32 x8 hc) := by
  unfold val_main_v97 val_main_v96 val_main_v95 val_main_v94
  exact host_addBias _ _ x8 _ _ hc

/-- The scores of the queried pairs, before the final recast to a vector. -/
theorem scores (hc1 : S16.ShapeCasts S1x16) (hc2 : S1.ShapeCasts S1x1) :
    val_main_v131 (F := Ideal) x0 x1 x2 x3 x4 x5 x6 x7 x8 x9 x10 x11 x12
      = score (N := 500000) (K := 32) (H := 16) (val_main_v116 (F := Ideal) x0 x1 x2 x3 x4 x5 x6 x7 x8) x9 (shapeCast S1x16 x10 hc1)
          x11 (shapeCast S1x1 x12 hc2) := by
  unfold val_main_v131 val_main_v130 val_main_cst_23 val_main_v129 val_main_v128 val_main_cst_22 val_main_v127 val_main_v126
    val_main_v125 val_main_v124 val_main_v123 val_main_v122 val_main_v121 val_main_call2_v0 val_main_call2_cst val_main_v120
    val_main_v119 val_main_v118 val_main_v117
  exact host_score dot_S500000x32_S32x16_S500000x16_1_0_0_1_n_n Facts₀.dot_S500000x32_S32x16_S500000x16_1_0_0_1_n_n_wf rfl
    dot_S500000x16_S16x1_S500000x1_1_0_0_1_n_n Facts₀.dot_S500000x16_S16x1_S500000x1_1_0_0_1_n_n_wf rfl
    _ x9 x10 x11 x12 _ _ _ hc1 _ _ _ hc2

end Cert.ReferenceIdeal.Stages

end
-- ==== Proof.Fold.lean ====
/-
  THE DEVICE PROGRAM'S RESULT AS A FUNCTION OF ITS ARGUMENTS.

  The program's buffer contents are followed through its thirteen boundaries. After each host stretch a written buffer
  holds the stretch's operations applied to what the buffers they read held before; after each pipelined call the
  call's output holds the whole-array stage of its three (or five) input arrays. Every value is stated as the
  reference's own stage of the arguments: the host stretches of the two programs are the same operations in the same
  order — slicing the edge list, counting degrees, taking inverse square roots, gathering along edges, scattering onto
  nodes, gathering the queried pairs — so a device buffer holds the reference's stage as soon as the buffers it was
  computed from do; and each call's stage is the reference's dense step (the reference's bias broadcasts and the
  device's one-row bias blocks name the same entries; the device's weight products add a bias of zeros). The
  reference computes the degrees, normalisation and edge coefficients once per layer, the device once for both: the
  same operations of the same edge list, so the one device buffer holds both of the reference's stages. The chain
  ends at the result buffer, which holds the reference's result stage of the same thirteen arguments.
-/
import proofs.«147929_j72112500900411_2_alg».proof.Proof.Carry
import proofs.«147929_j72112500900411_2_alg».proof.Proof.Encoder
import proofs.«147929_j72112500900411_2_alg».proof.Proof.ProductOne
import proofs.«147929_j72112500900411_2_alg».proof.Proof.CombineOne
import proofs.«147929_j72112500900411_2_alg».proof.Proof.ProductTwo
import proofs.«147929_j72112500900411_2_alg».proof.Proof.CombineTwo
import proofs.«147929_j72112500900411_2_alg».proof.Proof.Scorer
import proofs.«147929_j72112500900411_2_alg».proof.Proof.RefStages

set_option maxRecDepth 16384
set_option maxHeartbeats 2000000

noncomputable section

namespace Cert.KernelIdeal.Fold

open Cert.KernelIdeal Cert.KernelIdeal.Gen Cert.KernelIdeal.Carry Cert.DenseStages
open Idealize.ShloMosaic Idealize.ShloMosaic.TcCoe Idealize.SL.Sem Idealize.ShloMosaic.StableHlo
open Cert.ReferenceIdeal.Read (val_main_v1 val_main_v3 val_main_v8 val_main_v9 val_main_v31 val_main_v44 val_main_v45 val_main_v48 val_main_v53 val_main_v54 val_main_v76 val_main_v89 val_main_v90 val_main_v93 val_main_v97 val_main_v99 val_main_v108 val_main_v116 val_main_v131 val_main_v132)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)

/-! ## After the first host stretch: edge endpoints, query endpoints, normalisation, the encoder's bias as a row -/

theorem w1_bias : W1 m ρ c (Proc.devRef .tc main_v31) = shapeCast S1x64 x4 Facts₀.shapeCasts_S64_S1x64 := by
  show StableHlo.after hostOps0 (W0 m ρ c) (Proc.devRef .tc main_v31) = _
  unfold hostOps0
  after_results
  rfl

theorem w1_src : W1 m ρ c (Proc.devRef .tc main_v1) = val_main_v1 (F := Ideal) x1 := by
  show StableHlo.after hostOps0 (W0 m ρ c) (Proc.devRef .tc main_v1) = _
  unfold hostOps0
  after_results
  rfl

theorem w1_dst : W1 m ρ c (Proc.devRef .tc main_v3) = val_main_v3 (F := Ideal) x1 := by
  show StableHlo.after hostOps0 (W0 m ρ c) (Proc.devRef .tc main_v3) = _
  unfold hostOps0
  after_results
  rfl

theorem w1_q0 : W1 m ρ c (Proc.devRef .tc main_v5) = val_main_v99 (F := Ideal) x2 := by
  show StableHlo.after hostOps0 (W0 m ρ c) (Proc.devRef .tc main_v5) = _
  unfold hostOps0
  after_results
  rfl

theorem w1_q1 : W1 m ρ c (Proc.devRef .tc main_v7) = val_main_v108 (F := Ideal) x2 := by
  show StableHlo.after hostOps0 (W0 m ρ c) (Proc.devRef .tc main_v7) = _
  unfold hostOps0
  after_results
  rfl

/-- The squared normalisation, as the reference names it in its first layer. -/
theorem w1_isq2 : W1 m ρ c (Proc.devRef .tc main_v15) = val_main_v45 (F := Ideal) x1 := by
  show StableHlo.after hostOps0 (W0 m ρ c) (Proc.devRef .tc main_v15) = _
  unfold hostOps0
  after_results_simp
  rfl

/-- … and as the reference names it again in its second layer: the same operations of the same edge list. -/
theorem w1_isq2' : W1 m ρ c (Proc.devRef .tc main_v15) = val_main_v90 (F := Ideal) x1 := by
  show StableHlo.after hostOps0 (W0 m ρ c) (Proc.devRef .tc main_v15) = _
  unfold hostOps0
  after_results_simp
  rfl

/-- The edge coefficients, as the reference names them in its first layer. -/
theorem w1_coef : W1 m ρ c (Proc.devRef .tc main_v30) = val_main_v31 (F := Ideal) x1 := by
  show StableHlo.after hostOps0 (W0 m ρ c) (Proc.devRef .tc main_v30) = _
  unfold hostOps0
  after_results_simp
  rfl

/-- … and again in its second layer. -/
theorem w1_coef' : W1 m ρ c (Proc.devRef .tc main_v30) = val_main_v76 (F := Ideal) x1 := by
  show StableHlo.after hostOps0 (W0 m ρ c) (Proc.devRef .tc main_v30) = _
  unfold hostOps0
  after_results_simp
  rfl

/-! ## The encoder -/

theorem w2_enc : W2 m ρ c (Proc.devRef .tc main_v32) = val_main_v8 (F := Ideal) x0 x3 x4 := by
  refine (W2_arr m ρ c 3).trans ((Encoder.final (V1 m ρ) c).trans ?_)
  show affineRelu (N := 100000) (K := 32) (C := 64) (W1 m ρ c (Proc.devRef .tc main_arg0)) (W1 m ρ c (Proc.devRef .tc main_arg3)) (W1 m ρ c (Proc.devRef .tc main_v31)) = _
  rw [carry_arg0_1_0 m ρ c, carry_arg3_1_0 m ρ c, w1_bias]
  exact (Cert.ReferenceIdeal.Stages.encoded x0 x3 x4 _).symm

/-! ## The first layer -/

theorem w3_zero : W3 m ρ c (Proc.devRef .tc main_v34) = shapeCast S1x64 (broadcastInDim S64 ![] Facts₀.bcast_S_S64 (constant (F := Ideal) S_ .f32 0x00000000#32)) Facts₀.shapeCasts_S64_S1x64 := by
  show StableHlo.after hostOps1 (W2 m ρ c) (Proc.devRef .tc main_v34) = _
  unfold hostOps1
  after_results
  rfl

theorem w4_prod : W4 m ρ c (Proc.devRef .tc main_v35) = val_main_v9 (F := Ideal) x0 x3 x4 x5 := by
  refine (W4_arr m ρ c 3).trans ((ProductOne.final (V3 m ρ) c).trans ?_)
  show affine (N := 100000) (K := 64) (C := 64) (W3 m ρ c (Proc.devRef .tc main_v32)) (W3 m ρ c (Proc.devRef .tc main_arg5)) (W3 m ρ c (Proc.devRef .tc main_v34)) = _
  rw [carry_v32_3_2 m ρ c, w2_enc, carry_arg5_3_0 m ρ c, w3_zero]
  exact (Cert.ReferenceIdeal.Stages.productOne x0 x3 x4 x5 _ _).symm

theorem w5_agg : W5 m ρ c (Proc.devRef .tc main_v48) = val_main_v44 (F := Ideal) x0 x1 x3 x4 x5 := by
  show StableHlo.after hostOps2 (W4 m ρ c) (Proc.devRef .tc main_v48) = _
  unfold hostOps2
  after_results_simp
  rw [w4_prod, carry_v1_4_1 m ρ c, w1_src, carry_v3_4_1 m ρ c, w1_dst, carry_v30_4_1 m ρ c, w1_coef]
  rfl

theorem w5_self : W5 m ρ c (Proc.devRef .tc main_v51) = val_main_v48 (F := Ideal) x0 x1 x3 x4 x5 := by
  show StableHlo.after hostOps2 (W4 m ρ c) (Proc.devRef .tc main_v51) = _
  unfold hostOps2
  after_results_simp
  rw [w4_prod, carry_v15_4_1 m ρ c, w1_isq2]
  rfl

theorem w5_bias : W5 m ρ c (Proc.devRef .tc main_v52) = shapeCast S1x64 x6 Facts₀.shapeCasts_S64_S1x64 := by
  show StableHlo.after hostOps2 (W4 m ρ c) (Proc.devRef .tc main_v52) = _
  unfold hostOps2
  after_results_simp
  rw [carry_arg6_4_0 m ρ c]
  rfl

theorem w6_out : W6 m ρ c (Proc.devRef .tc main_v53) = val_main_v53 (F := Ideal) x0 x1 x3 x4 x5 x6 := by
  refine (W6_arr m ρ c 3).trans ((CombineOne.final (V5 m ρ) c).trans ?_)
  show addBiasRelu (N := 100000) (C := 64) (W5 m ρ c (Proc.devRef .tc main_v48)) (W5 m ρ c (Proc.devRef .tc main_v51)) (W5 m ρ c (Proc.devRef .tc main_v52)) = _
  rw [w5_agg, w5_self, w5_bias]
  exact (Cert.ReferenceIdeal.Stages.layerOne x0 x1 x3 x4 x5 x6 _).symm

/-! ## The second layer -/

theorem w7_zero : W7 m ρ c (Proc.devRef .tc main_v55) = shapeCast S1x32 (broadcastInDim S32 ![] Facts₀.bcast_S_S32 (constant (F := Ideal) S_ .f32 0x00000000#32)) Facts₀.shapeCasts_S32_S1x32 := by
  show StableHlo.after hostOps3 (W6 m ρ c) (Proc.devRef .tc main_v55) = _
  unfold hostOps3
  after_results
  rfl

theorem w8_prod : W8 m ρ c (Proc.devRef .tc main_v56) = val_main_v54 (F := Ideal) x0 x1 x3 x4 x5 x6 x7 := by
  refine (W8_arr m ρ c 3).trans ((ProductTwo.final (V7 m ρ) c).trans ?_)
  show affine (N := 100000) (K := 64) (C := 32) (W7 m ρ c (Proc.devRef .tc main_v53)) (W7 m ρ c (Proc.devRef .tc main_arg7)) (W7 m ρ c (Proc.devRef .tc main_v55)) = _
  rw [carry_v53_7_6 m ρ c, w6_out, carry_arg7_7_0 m ρ c, w7_zero]
  exact (Cert.ReferenceIdeal.Stages.productTwo x0 x1 x3 x4 x5 x6 x7 _ _).symm

theorem w9_agg : W9 m ρ c (Proc.devRef .tc main_v69) = val_main_v89 (F := Ideal) x0 x1 x3 x4 x5 x6 x7 := by
  show StableHlo.after hostOps4 (W8 m ρ c) (Proc.devRef .tc main_v69) = _
  unfold hostOps4
  after_results_simp
  rw [w8_prod, carry_v1_8_4 m ρ c, carry_v1_4_1 m ρ c, w1_src, carry_v3_8_4 m ρ c, carry_v3_4_1 m ρ c, w1_dst, carry_v30_8_4 m ρ c, carry_v30_4_1 m ρ c, w1_coef']
  rfl

theorem w9_self : W9 m ρ c (Proc.devRef .tc main_v72) = val_main_v93 (F := Ideal) x0 x1 x3 x4 x5 x6 x7 := by
  show StableHlo.after hostOps4 (W8 m ρ c) (Proc.devRef .tc main_v72) = _
  unfold hostOps4
  after_results_simp
  rw [w8_prod, carry_v15_8_4 m ρ c, carry_v15_4_1 m ρ c, w1_isq2']
  rfl

theorem w9_bias : W9 m ρ c (Proc.devRef .tc main_v73) = shapeCast S1x32 x8 Facts₀.shapeCasts_S32_S1x32 := by
  show StableHlo.after hostOps4 (W8 m ρ c) (Proc.devRef .tc main_v73) = _
  unfold hostOps4
  after_results_simp
  rw [carry_arg8_8_0 m ρ c]
  rfl

theorem w10_out : W10 m ρ c (Proc.devRef .tc main_v74) = val_main_v97 (F := Ideal) x0 x1 x3 x4 x5 x6 x7 x8 := by
  refine (W10_arr m ρ c 3).trans ((CombineTwo.final (V9 m ρ) c).trans ?_)
  show addBias (N := 100000) (C := 32) (W9 m ρ c (Proc.devRef .tc main_v69)) (W9 m ρ c (Proc.devRef .tc main_v72)) (W9 m ρ c (Proc.devRef .tc main_v73)) = _
  rw [w9_agg, w9_self, w9_bias]
  exact (Cert.ReferenceIdeal.Stages.layerTwo x0 x1 x3 x4 x5 x6 x7 x8 _).symm

/-! ## The edge scorer -/

theorem w11_pairs : W11 m ρ c (Proc.devRef .tc main_v89) = val_main_v116 (F := Ideal) x0 x1 x2 x3 x4 x5 x6 x7 x8 := by
  show StableHlo.after hostOps5 (W10 m ρ c) (Proc.devRef .tc main_v89) = _
  unfold hostOps5
  after_results_simp
  rw [w10_out, carry_v5_10_1 m ρ c, w1_q0, carry_v7_10_1 m ρ c, w1_q1]
  rfl

theorem w11_bias1 : W11 m ρ c (Proc.devRef .tc main_v90) = shapeCast S1x16 x10 Facts₀.shapeCasts_S16_S1x16 := by
  show StableHlo.after hostOps5 (W10 m ρ c) (Proc.devRef .tc main_v90) = _
  unfold hostOps5
  after_results_simp
  rw [carry_arg10_10_0 m ρ c]
  rfl

theorem w11_bias2 : W11 m ρ c (Proc.devRef .tc main_v91) = shapeCast S1x1 x12 Facts₀.shapeCasts_S1_S1x1 := by
  show StableHlo.after hostOps5 (W10 m ρ c) (Proc.devRef .tc main_v91) = _
  unfold hostOps5
  after_results_simp
  rw [carry_arg12_10_0 m ρ c]
  rfl

theorem w12_scores : W12 m ρ c (Proc.devRef .tc main_v92) = val_main_v131 (F := Ideal) x0 x1 x2 x3 x4 x5 x6 x7 x8 x9 x10 x11 x12 := by
  refine (W12_arr m ρ c 5).trans ((Scorer.final (V11 m ρ) c).trans ?_)
  show score (N := 500000) (K := 32) (H := 16) (W11 m ρ c (Proc.devRef .tc main_v89)) (W11 m ρ c (Proc.devRef .tc main_arg9)) (W11 m ρ c (Proc.devRef .tc main_v90)) (W11 m ρ c (Proc.devRef .tc main_arg11)) (W11 m ρ c (Proc.devRef .tc main_v91)) = _
  rw [w11_pairs, carry_arg9_11_0 m ρ c, w11_bias1, carry_arg11_11_0 m ρ c, w11_bias2]
  exact (Cert.ReferenceIdeal.Stages.scores x0 x1 x2 x3 x4 x5 x6 x7 x8 x9 x10 x11 x12 _ _).symm

/-- THE RESULT: the scores recast as a vector — the reference's result as a function of the same arguments. -/
theorem result : W13 m ρ c (Proc.devRef .tc main_v93) = val_main_v132 (F := Ideal) x0 x1 x2 x3 x4 x5 x6 x7 x8 x9 x10 x11 x12 := by
  show StableHlo.after hostOps6 (W12 m ρ c) (Proc.devRef .tc main_v93) = _
  unfold hostOps6
  after_results
  rw [w12_scores]
  rfl

end Cert.KernelIdeal.Fold

end
-- ==== Proof.lean ====
/-
  A TWO-LAYER GRAPH CONVOLUTION NETWORK WITH AN EDGE SCORER, on a device and on the host: equal results on the extended reals.

  Both programs encode 100000 nodes' features (an affine map cut off at zero), apply two graph-convolution layers —
  a weight product; messages gathered along 3200000 edges, scaled by the symmetric degree normalisation and summed onto
  their target nodes; the node's own scaled features and a bias added, the first layer cut off at zero — and score
  500000 queried node pairs: the two nodes' features are added, passed through an affine map cut off at zero and a
  second affine map onto one number, and the logistic function 1 / (1 + e^(-x)) is taken.

  The device program runs the six dense steps as pipelined calls that work through the rows ten thousand at a time,
  and leaves degrees, normalisation, gathers and scatters to the same host operations the reference uses. Each dense
  step's entry (p, q) depends on row p of its inputs only, so the blocks written back tile one whole-array function
  of the inputs, which is the reference's dense step entry by entry: the matrix unit accumulating into zeros and the
  host's product are the same sum; narrowing to sixteen bits changes no number here; a one-row bias block broadcast
  down the rows and a bias vector broadcast to a row and down the rows name the same entry; the device's weight
  products add a bias of zeros, and x + 0 = x on every extended real; the device's logistic operation is by
  definition the quotient the reference spells out. The host steps in between are the same operations on both sides
  and are never opened. No step uses that the inputs are finite.

  The three frames: the two device programs by their generated frame certificates, the reference by its generated
  run with the result dropped. The idealization rewrote nothing, so there is nothing to preserve.
-/
import proofs.«147929_j72112500900411_2_alg».proof.Defs
import proofs.«147929_j72112500900411_2_alg».proof.Proof.Gen.Kernel
import proofs.«147929_j72112500900411_2_alg».proof.Proof.Gen.Kernel.Skeleton
import proofs.«147929_j72112500900411_2_alg».proof.Proof.Gen.Kernel.Launch
import proofs.«147929_j72112500900411_2_alg».proof.Proof.Gen.Kernel.Points
import proofs.«147929_j72112500900411_2_alg».proof.Proof.Gen.Kernel.Frame
import proofs.«147929_j72112500900411_2_alg».proof.Proof.Gen.KernelIdeal
import proofs.«147929_j72112500900411_2_alg».proof.Proof.Gen.KernelIdeal.Skeleton
import proofs.«147929_j72112500900411_2_alg».proof.Proof.Gen.KernelIdeal.Launch
import proofs.«147929_j72112500900411_2_alg».proof.Proof.Gen.KernelIdeal.Points
import proofs.«147929_j72112500900411_2_alg».proof.Proof.Gen.KernelIdeal.Frame
import proofs.«147929_j72112500900411_2_alg».proof.Proof.Gen.ReferenceIdeal
import proofs.«147929_j72112500900411_2_alg».proof.Proof.Gen.Pre_finite_inputs
import proofs.«147929_j72112500900411_2_alg».proof.Proof.Gen.ReferenceIdeal.Run
import proofs.«147929_j72112500900411_2_alg».proof.Proof.Gen.ReferenceIdeal.Read
import proofs.«147929_j72112500900411_2_alg».proof.Proof.KernelRun
import proofs.«147929_j72112500900411_2_alg».proof.Proof.Fold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the device program's arguments: the device program by
    following its buffers through its stretches, the reference by its run, its arguments being the same arrays. -/
theorem algebraic : Cert.algebraic_KernelIdeal_ReferenceIdeal := by
  intro m ρ m' ρ' _ hagree
  refine ⟨fun c => Cert.ReferenceIdeal.Read.val_main_v132 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result m ρ c), (h c).2⟩) (Cert.KernelIdeal.Named.run_named m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v132_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
